-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S11008 : S_.BroadcastsInDim S11008 (![] : Fin 0 → Fin S11008.rank)
  reducesTo_S11008_S_d0 : S11008.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2048x4096 .f32) (main_arg1 : IVec S11008x4096 32) (main_arg2 : IVec S11008x4096 32) (main_arg3 : IVec S4096x11008 32) (main_arg4 : FVec F S11008 .f32) (main_arg5 : FVec F S11008 .f32) (main_arg6 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S11008 .f32 := Host.absf main_arg4
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg5
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S4096 .f32 := Host.absf main_arg6
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2048x4096 : Shape := ⟨2, ![2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S1x11008 : Shape := ⟨2, ![1, 11008]⟩
abbrev S2048x11008 : Shape := ⟨2, ![2048, 11008]⟩
abbrev S512x2048 : Shape := ⟨2, ![512, 2048]⟩
abbrev S256x2048 : Shape := ⟨2, ![256, 2048]⟩
abbrev S1x256 : Shape := ⟨2, ![1, 256]⟩
abbrev S512x256 : Shape := ⟨2, ![512, 256]⟩
abbrev S1x4096 : Shape := ⟨2, ![1, 4096]⟩
abbrev S1024x256 : Shape := ⟨2, ![1024, 256]⟩
abbrev S1x1024 : Shape := ⟨2, ![1, 1024]⟩
abbrev S1024x1024 : Shape := ⟨2, ![1024, 1024]⟩

abbrev nBuf : Space → Nat
  | .hbm => 12
  | .vmem => 23
  | .smem => 0
  | _ => 0

abbrev bufTy : (tb : Table) → Fin (tcTables nBuf tb) → BufTy
  | .hbm, ⟨0, _⟩ => ⟨S2048x4096, .f32⟩
  | .hbm, ⟨1, _⟩ => ⟨S11008x4096, .i32⟩
  | .hbm, ⟨2, _⟩ => ⟨S11008x4096, .i32⟩
  | .hbm, ⟨3, _⟩ => ⟨S4096x11008, .i32⟩
  | .hbm, ⟨4, _⟩ => ⟨S11008, .f32⟩
  | .hbm, ⟨5, _⟩ => ⟨S11008, .f32⟩
  | .hbm, ⟨6, _⟩ => ⟨S4096, .f32⟩
  | .hbm, ⟨7, _⟩ => ⟨S1x11008, .f32⟩
  | .hbm, ⟨8, _⟩ => ⟨S1x11008, .f32⟩
  | .hbm, ⟨9, _⟩ => ⟨S2048x11008, .bf16⟩
  | .hbm, ⟨10, _⟩ => ⟨S1x4096, .f32⟩
  | .hbm, ⟨11, _⟩ => ⟨S2048x4096, .f32⟩
  | .local _ .vmem, ⟨0, _⟩ => ⟨S512x2048, .f32⟩
  | .local _ .vmem, ⟨1, _⟩ => ⟨S512x2048, .f32⟩
  | .local _ .vmem, ⟨2, _⟩ => ⟨S256x2048, .i32⟩
  | .local _ .vmem, ⟨3, _⟩ => ⟨S256x2048, .i32⟩
  | .local _ .vmem, ⟨4, _⟩ => ⟨S256x2048, .i32⟩
  | .local _ .vmem, ⟨5, _⟩ => ⟨S256x2048, .i32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x256, .bf16⟩
  | .local _ .vmem, ⟨11, _⟩ => ⟨S512x256, .bf16⟩
  | .local _ .vmem, ⟨12, _⟩ => ⟨S512x256, .f32⟩
  | .local _ .vmem, ⟨13, _⟩ => ⟨S512x256, .f32⟩
  | .local _ .vmem, ⟨14, _⟩ => ⟨S1024x256, .bf16⟩
  | .local _ .vmem, ⟨15, _⟩ => ⟨S1024x256, .bf16⟩
  | .local _ .vmem, ⟨16, _⟩ => ⟨S1024x256, .i32⟩
  | .local _ .vmem, ⟨17, _⟩ => ⟨S1024x256, .i32⟩
  | .local _ .vmem, ⟨18, _⟩ => ⟨S1x1024, .f32⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨3, ![4, 43, 2], ![false, false, false]⟩

def k0_cond2 (i : grid0.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![2, 4, 43], ![false, false, false]⟩

def k1_cond2 (i : grid1.Coords) : BitVec 1 :=
  let arg2 : BitVec 32 := BitVec.ofNat 32 (i 2).val
  let c42_i32 : BitVec 32 := 42#32
  let v13 : BitVec 1 := Scalar.cmpi .eq arg2 c42_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S11008_S1x11008 : S11008.ShapeCasts S1x11008
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  packedbf16_S512x256_S512x256_0_0 : (Rect.unit (s := S512x256) ![0, 0] S512x256.size inb_S512x256_S512x256_0_0).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S512x2048_S256x2048_S512x256_1_1_0_0_n_n_wf : DotDims.WF S512x2048 S256x2048 S512x256 [1] [1] [0] [0] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x4096.size a
  hwx0_0 : ∀ i : grid0.Coords, EltTy.bits .f32 = 32 ∨ (Rect.block (s := S2048x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S11008x4096.size a
  hwx0_1 : ∀ i : grid0.Coords, EltTy.bits .i32 = 32 ∨ (Rect.block (s := S11008x4096) S256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S11008x4096.size a
  hwx0_2 : ∀ i : grid0.Coords, EltTy.bits .i32 = 32 ∨ (Rect.block (s := S11008x4096) S256x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S2048x11008.size a
  hwx0_5 : ∀ i : grid0.Coords, EltTy.bits .bf16 = 32 ∨ (Rect.block (s := S2048x11008) S512x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S2048x11008.size a
  hwx1_0 : ∀ i : grid1.Coords, EltTy.bits .bf16 = 32 ∨ (Rect.block (s := S2048x11008) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x11008.size a
  hwx1_1 : ∀ i : grid1.Coords, EltTy.bits .i32 = 32 ∨ (Rect.block (s := S4096x11008) S1024x256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S2048x4096.size a
  hwx1_3 : ∀ i : grid1.Coords, EltTy.bits .f32 = 32 ∨ (Rect.block (s := S2048x4096) S1024x1024.size (cc1_transform_3 i) (hinb1_3 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v2) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2048x4096 : Shape := ⟨2, ![2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S2048x11008 : Shape := ⟨2, ![2048, 11008]⟩
abbrev S1x11008 : Shape := ⟨2, ![1, 11008]⟩
abbrev S_ : Shape := ⟨0, ![]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S11008x4096, .i32⟩
  | .hbm, ⟨2, _⟩ => ⟨S11008x4096, .i32⟩
  | .hbm, ⟨3, _⟩ => ⟨S4096x11008, .i32⟩
  | .hbm, ⟨4, _⟩ => ⟨S11008, .f32⟩
  | .hbm, ⟨5, _⟩ => ⟨S11008, .f32⟩
  | .hbm, ⟨6, _⟩ => ⟨S4096, .f32⟩
  | .hbm, ⟨7, _⟩ => ⟨S11008x4096, .f32⟩
  | .hbm, ⟨8, _⟩ => ⟨S2048x11008, .f32⟩
  | .hbm, ⟨9, _⟩ => ⟨S1x11008, .f32⟩
  | .hbm, ⟨10, _⟩ => ⟨S2048x11008, .f32⟩
  | .hbm, ⟨11, _⟩ => ⟨S2048x11008, .f32⟩
  | .hbm, ⟨12, _⟩ => ⟨S11008x4096, .f32⟩
  | .hbm, ⟨13, _⟩ => ⟨S2048x11008, .f32⟩
  | .hbm, ⟨14, _⟩ => ⟨S1x11008, .f32⟩
  | .hbm, ⟨15, _⟩ => ⟨S2048x11008, .f32⟩
  | .hbm, ⟨16, _⟩ => ⟨S2048x11008, .f32⟩
  | .hbm, ⟨17, _⟩ => ⟨S2048x11008, .f32⟩
  | .hbm, ⟨18, _⟩ => ⟨S2048x11008, .f32⟩
  | .hbm, ⟨19, _⟩ => ⟨S_, .f32⟩
  | .hbm, ⟨20, _⟩ => ⟨S2048x11008, .f32⟩
  | .hbm, ⟨21, _⟩ => ⟨S2048x11008, .f32⟩
  | .hbm, ⟨22, _⟩ => ⟨S_, .f32⟩
  | .hbm, ⟨23, _⟩ => ⟨S2048x11008, .f32⟩
  | .hbm, ⟨24, _⟩ => ⟨S2048x11008, .f32⟩
  | .hbm, ⟨25, _⟩ => ⟨S2048x11008, .f32⟩
  | .hbm, ⟨26, _⟩ => ⟨S2048x11008, .f32⟩
  | .hbm, ⟨27, _⟩ => ⟨S4096x11008, .f32⟩
  | .hbm, ⟨28, _⟩ => ⟨S2048x4096, .f32⟩
  | .hbm, ⟨29, _⟩ => ⟨S1x4096, .f32⟩
  | .hbm, ⟨30, _⟩ => ⟨S2048x4096, .f32⟩
  | .hbm, ⟨31, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  bcast_S11008_S1x11008_1 : S11008.BroadcastsInDim S1x11008 (![1] : Fin 1 → Fin S1x11008.rank)
  bcast_S1x11008_S2048x11008_0_1 : S1x11008.BroadcastsInDim S2048x11008 (![0, 1] : Fin 2 → Fin S2048x11008.rank)
  bcast_S_S2048x11008 : S_.BroadcastsInDim S2048x11008 (![] : Fin 0 → Fin S2048x11008.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S11008x4096_S2048x11008_1_1_0_0_n_n_wf : DotDims.WF S2048x4096 S11008x4096 S2048x11008 [1] [1] [0] [0] [] []
  dot_S2048x11008_S4096x11008_S2048x4096_1_1_0_0_n_n_wf : DotDims.WF S2048x11008 S4096x11008 S2048x4096 [1] [1] [0] [0] [] []

variable [Facts₀]

def dot_S2048x4096_S11008x4096_S2048x11008_1_1_0_0_n_n : DotDims S2048x4096 S11008x4096 S2048x11008 where
  lhsContracting := [1]
  rhsContracting := [1]
  lhsNonContracting := [0]
  rhsNonContracting := [0]
  lhsBatch := []
  rhsBatch := []
  wf := dot_S2048x4096_S11008x4096_S2048x11008_1_1_0_0_n_n_wf
def dot_S2048x11008_S4096x11008_S2048x4096_1_1_0_0_n_n : DotDims S2048x11008 S4096x11008 S2048x4096 where
  lhsContracting := [1]
  rhsContracting := [1]
  lhsNonContracting := [0]
  rhsNonContracting := [0]
  lhsBatch := []
  rhsBatch := []
  wf := dot_S2048x11008_S4096x11008_S2048x4096_1_1_0_0_n_n_wf

class Facts : Prop extends Facts₀ where

variable [Facts]
-- ==== Proof.K.R0Base.lean ====
/-
  Region 0 (the gate/up kernel) at the contents `V` the region is entered with: each window's block at a grid
  point, the two branch conditions of the body in closed form (the grid is 4 × 43 × 2 with the contraction block
  innermost, so the accumulators are zeroed at the even points and the output is stored at the odd ones), where the
  output window is idle, and the region's invariant with the two accumulator buffers named.
-/
import proofs.«176034_j64441689309584_1_alg».proof.Proof.Gen.Kernel.Launch
import proofs.«176034_j64441689309584_1_alg».proof.Proof.Gen.Kernel.Skeleton
import proofs.«176034_j64441689309584_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (the two scale rows
    are fetched only when the column block changes; unfetched, the block index has not moved). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two conditions over the grid -/

/-- "This is the first contraction block": the accumulators are zeroed. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- "This is the last contraction block": the output block is computed and stored. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At the even points nothing is stored into the output window: it is idle there and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At the odd points the output window is live. -/
theorem liveAt0_5_B : ∀ t : Fin cfg0.N, ¬cond0_0 (grid0.coords t) → cond0_1 (grid0.coords t) → cfg0.idle 5 (grid0.coords t) = false := by decide +kernel

/-! ## The memrefs the body is called with -/

abbrev VO0_5 : View sig .tc .vmem S512x256 .bf16 := (Memref.whole cc0_stg5_0 : Memref sig .tc .vmem S512x256 .bf16).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
/-- The two accumulators (gate and up): whole scoped buffers of the kernel's own. -/
abbrev scM0_0 : Memref sig .tc .vmem S512x256 .f32 := Memref.whole cc0_scratch0
abbrev scM0_1 : Memref sig .tc .vmem S512x256 .f32 := Memref.whole cc0_scratch1
abbrev VS0_0 : View sig .tc .vmem S512x256 .f32 := scM0_0.view
abbrev VS0_1 : View sig .tc .vmem S512x256 .f32 := scM0_1.view

/-- The scoped buffers of the core that are neither a staging buffer nor an accumulator of this region (they are the
    other region's), each whole at some contents: the region never looks at them. -/
abbrev Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's plain invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA; rw [scopedRest0_eq]; simp only [scM0_0, scM0_1, owns_whole]; try rfl

end Cert.Kernel.Fr

end
-- ==== Proof.K.R0RunA.lean ====
/-
  The gate/up kernel's body at a point of the FIRST contraction block (the accumulators are zeroed, then the block's
  two products are added; nothing is stored into the output window): run once on whole staging memrefs. The pieces
  the two accumulator buffers end with are what the run finds.
-/
import proofs.«176034_j64441689309584_1_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- Case A (first contraction block): inputs at their contents, the idle output handed back untouched, the two
    accumulators at anything on entry and at their written pieces on exit. -/
noncomputable def kernelRun0_A (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x2048 .f32) (x1 : Vec F S256x2048 .i32) (x2 : Vec F S256x2048 .i32) (x3 : Vec F S1x256 .f32) (x4 : Vec F S1x256 .f32) :
    Σ' (L5 : List (View.Piece (Elt F) S512x256 .bf16)) (LS0 : List (View.Piece (Elt F) S512x256 .f32)), { LS1 : List (View.Piece (Elt F) S512x256 .f32) //
      ∀ (xi5 : Vec F S512x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8 arg9 harg9 arg10 harg10) K } := by
  refine ⟨[], ?_, ?_, fun xi5 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Fr

end
-- ==== Proof.K.R0RunB.lean ====
/-
  The gate/up kernel's body at a point of the LAST contraction block (the accumulators are carried over from the point
  before, the block's two products are added, and the output block — the gated product of the two scaled accumulators —
  is stored): run once on whole staging memrefs. The pieces the output buffer and the two accumulator buffers end with
  are what the run finds.
-/
import proofs.«176034_j64441689309584_1_alg».proof.Proof.K.R0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- Case B (last contraction block): inputs at their contents, the output at anything on entry, the two accumulators
    at what the point before left (`xs0`, `xs1`); on exit each of the three at its written pieces. -/
noncomputable def kernelRun0_B (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) :
    Σ' (L5 : List (View.Piece (Elt F) S512x256 .bf16)) (LS0 : List (View.Piece (Elt F) S512x256 .f32)), { LS1 : List (View.Piece (Elt F) S512x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8 arg9 harg9 arg10 harg10) K } := by
  refine ⟨?_, ?_, ?_, fun E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; iexact HS1

end Cert.Kernel.Fr

end
-- ==== Proof.K.R0Frame.lean ====
/-
  Region 0's frame data. What each case of the body leaves in the output buffer and in the two accumulators (the
  run's pieces read back); the ACCUMULATION `outsAt0`: by recursion on the grid point, an even point's contents from
  nothing (the accumulators are zeroed there), an odd point's from what the even point before it left in the
  accumulators; the region's invariant carrying the accumulators' named contents from one point to the next; the
  pipeline's proof data; the body obligation at every point; and that the invariant starts as the plain one and ends
  as it.
-/
import proofs.«176034_j64441689309584_1_alg».proof.Proof.K.R0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

def out0_A_5 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x2048 .f32) (x1 : Vec F S256x2048 .i32) (x2 : Vec F S256x2048 .i32) (x3 : Vec F S1x256 .f32) (x4 : Vec F S1x256 .f32) : Vec F S512x256 .bf16 :=
  VO0_5.read (Elt F) (VO0_5.writes (Elt F) VO0_5.junk (kernelRun0_A c i arg3 harg3 arg4 harg4 arg5 harg5 arg6 harg6 arg7 harg7 arg8 harg8 arg9 harg9 arg10 harg10 hc0 hc1 x0 x1 x2 x3 x4).1)
theorem scover0_A_0 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x2048 .f32) (x1 : Vec F S256x2048 .i32) (x2 : Vec F S256x2048 .i32) (x3 : Vec F S1x256 .f32) (x4 : Vec F S1x256 .f32) (y : S512x256.Idx) :
    ∃ pc ∈ (kernelRun0_A c i arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.1 S512x256.size (by sl_kernel_rfl) y
def sout0_A_0 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x2048 .f32) (x1 : Vec F S256x2048 .i32) (x2 : Vec F S256x2048 .i32) (x3 : Vec F S1x256 .f32) (x4 : Vec F S1x256 .f32) : Vec F S512x256 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4).2.1)
theorem scover0_A_1 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x2048 .f32) (x1 : Vec F S256x2048 .i32) (x2 : Vec F S256x2048 .i32) (x3 : Vec F S1x256 .f32) (x4 : Vec F S1x256 .f32) (y : S512x256.Idx) :
    ∃ pc ∈ (kernelRun0_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.2.1 S512x256.size (by sl_kernel_rfl) y
def sout0_A_1 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x2048 .f32) (x1 : Vec F S256x2048 .i32) (x2 : Vec F S256x2048 .i32) (x3 : Vec F S1x256 .f32) (x4 : Vec F S1x256 .f32) : Vec F S512x256 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3 x4).2.2.1)

theorem cover0_B_5 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) (y : S512x256.Idx) :
    ∃ pc ∈ (kernelRun0_B c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).1 S512x256.size (by sl_kernel_rfl) y
def out0_B_5 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) : Vec F S512x256 .bf16 :=
  VO0_5.read (Elt F) (VO0_5.writes (Elt F) VO0_5.junk (kernelRun0_B c i arg3 harg3 arg4 harg4 arg5 harg5 arg6 harg6 arg7 harg7 arg8 harg8 arg9 harg9 arg10 harg10 hc0 hc1 x0 x1 x2 x3 x4 xs0 xs1).1)
theorem scover0_B_0 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) (y : S512x256.Idx) :
    ∃ pc ∈ (kernelRun0_B c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).2.1 S512x256.size (by sl_kernel_rfl) y
def sout0_B_0 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) : Vec F S512x256 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 xs0 xs1).2.1)
theorem scover0_B_1 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) (y : S512x256.Idx) :
    ∃ pc ∈ (kernelRun0_B c i arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).2.2.1 S512x256.size (by sl_kernel_rfl) y
def sout0_B_1 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) : Vec F S512x256 .f32 :=
  VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 x4 xs0 xs1).2.2.1)

section Region0
variable (V : (c : Dev nD) → (b : Ref sig .tc) → Buf (Elt F) ((c : Thread nD τ).loc b))

/-! ## Point by point -/

theorem hA0 (t : Fin cfg0.N) (h0 : t.val % 2 = 0) : cond0_0 (grid0.coords t) ∧ ¬cond0_1 (grid0.coords t) :=
  ⟨(hcond0_0 t).mpr h0, fun h => by have := (hcond0_1 t).mp h; omega⟩
theorem hB0 (t : Fin cfg0.N) (h1 : t.val % 2 = 1) : ¬cond0_0 (grid0.coords t) ∧ cond0_1 (grid0.coords t) :=
  ⟨fun h => by have := (hcond0_0 t).mp h; omega, (hcond0_1 t).mpr h1⟩

/-- An even point: (the output's placeholder, the gate accumulator, the up accumulator) after the body. -/
def caseA0 (c : Dev nD) (t : Fin cfg0.N) (h0 : t.val % 2 = 0) : Vec F S512x256 .bf16 × Vec F S512x256 .f32 × Vec F S512x256 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hA0 t h0).1 (hA0 t h0).2 (iblk0 V c 0 t) (iblk0 V c 1 t) (iblk0 V c 2 t) (iblk0 V c 3 t) (iblk0 V c 4 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hA0 t h0).1 (hA0 t h0).2 (iblk0 V c 0 t) (iblk0 V c 1 t) (iblk0 V c 2 t) (iblk0 V c 3 t) (iblk0 V c 4 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hA0 t h0).1 (hA0 t h0).2 (iblk0 V c 0 t) (iblk0 V c 1 t) (iblk0 V c 2 t) (iblk0 V c 3 t) (iblk0 V c 4 t))
/-- An odd point, over the accumulators `p0`, `p1` the point before left. -/
def caseB0 (c : Dev nD) (t : Fin cfg0.N) (h1 : t.val % 2 = 1) (p0 p1 : Vec F S512x256 .f32) : Vec F S512x256 .bf16 × Vec F S512x256 .f32 × Vec F S512x256 .f32 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hB0 t h1).1 (hB0 t h1).2 (iblk0 V c 0 t) (iblk0 V c 1 t) (iblk0 V c 2 t) (iblk0 V c 3 t) (iblk0 V c 4 t) p0 p1,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hB0 t h1).1 (hB0 t h1).2 (iblk0 V c 0 t) (iblk0 V c 1 t) (iblk0 V c 2 t) (iblk0 V c 3 t) (iblk0 V c 4 t) p0 p1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hB0 t h1).1 (hB0 t h1).2 (iblk0 V c 0 t) (iblk0 V c 1 t) (iblk0 V c 2 t) (iblk0 V c 3 t) (iblk0 V c 4 t) p0 p1)

/-- THE ACCUMULATION: what the output's staging buffer and the two accumulators hold after the body at position `n`. -/
def outsAt0 (c : Dev nD) : (n : ℕ) → n < cfg0.N → Vec F S512x256 .bf16 × Vec F S512x256 .f32 × Vec F S512x256 .f32
  | 0, hn => caseA0 V c ⟨0, hn⟩ (Nat.zero_mod _)
  | n + 1, hn =>
    if h0 : (n + 1) % 2 = 0 then caseA0 V c ⟨n + 1, hn⟩ h0
    else caseB0 V c ⟨n + 1, hn⟩ (by (try dsimp only); omega) (outsAt0 c n (Nat.lt_of_succ_lt hn)).2.1 (outsAt0 c n (Nat.lt_of_succ_lt hn)).2.2

theorem outsAt0_A (c : Dev nD) (t : Fin cfg0.N) (h0 : t.val % 2 = 0) :
    outsAt0 V c t.val t.isLt = caseA0 V c t h0 := by
  obtain ⟨n, hn⟩ := t
  cases n with
  | zero => exact rfl
  | succ n => exact (dif_pos h0).trans rfl
theorem outsAt0_B (c : Dev nD) (t : Fin cfg0.N) (h1 : t.val % 2 = 1) :
    outsAt0 V c t.val t.isLt = caseB0 V c t h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h1); omega)
  | succ n => exact (dif_neg (by (try dsimp only at h1); omega)).trans rfl

/-- The region's invariant before position `n`: before the first point the plain one (every scoped buffer at
    anything); afterwards the two accumulators at what the point before left in them. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ Rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ Rest0 c) ∗ (∃ r, prngReg c r)) := by
  cases n with
  | zero => exact absurd rfl hz
  | succ n => rfl

/-! ## The proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The inputs' memrefs hold their blocks; the parity of the point says which case it is in;
    the invariant hands the body the accumulators (at anything before the first point, else at what the point before
    left) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 344 := lt_of_lt_of_eq t.isLt (show cfg0.N = 344 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 2 = 0
  · rw [Dat.leavesExact_idle (dat0 V c) 5 t (idleAt0_5_A t (hA0 t h0).1 (hA0 t h0).2) (noFlush0_5_A t (hA0 t h0).1 (hA0 t h0).2)]
    rw [outsAt0_A V c t h0]
    unfold caseA0 sout0_A_0 sout0_A_1; (try dsimp only)
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hA0 t h0).1 (hA0 t h0).2 (iblk0 V c 0 t) (iblk0 V c 1 t) (iblk0 V c 2 t) (iblk0 V c 3 t) (iblk0 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hA0 t h0).1 (hA0 t h0).2 (iblk0 V c 0 t) (iblk0 V c 1 t) (iblk0 V c 2 t) (iblk0 V c 3 t) (iblk0 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    rw [show (dat0 V c).leavesExact 5 t = owns (c : Thread nD τ) (ms0_5 t) fullShare ((dat0 V c).after 5 t) from by
      unfold Dat.leavesExact; rw [liveAt0_5_B t (hB0 t h1).1 (hB0 t h1).2], after0_5]
    rw [outsAt0_B V c t h1]
    unfold caseB0 out0_B_5 sout0_B_0 sout0_B_1; (try dsimp only)
    have hz : t.val ≠ 0 := by omega
    rw [PhiS0_castSucc V c t, PhiS0_pos V c _ _ hz]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hB0 t h1).1 (hB0 t h1).2 (iblk0 V c 0 t) (iblk0 V c 1 t) (iblk0 V c 2 t) (iblk0 V c 3 t) (iblk0 V c 4 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, ⟨%es0, HS0⟩, ⟨%es1, HS1⟩⟩
    isplitl [HS0 HS1 HR Hg]
    · isplitr [Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-! ## The invariant at the region's ends -/

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitr [Hg]
  · isplitl [HS0]; · iexists _; iexact HS0
    isplitl [HS1]; · iexists _; iexact HS1
    iexact HR
  iexact Hg
theorem hout0 (c : Dev nD) : (dat0 V c).Φ (Fin.last cfg0.N) ⊢ Pipeline.ΦA spec0 c :=
  Phi_out0 V c _ (by rw [Fin.val_last]; have : cfg0.N = 344 := N_0; omega)

end Region0

end Cert.Kernel.Fr

end
-- ==== Proof.K.R1Base.lean ====
/-
  Region 1 (the down-projection kernel) at the contents `V` the region is entered with: each window's block at a grid
  point, the two branch conditions of the body in closed form (the grid is 2 × 4 × 43 with the contraction block
  innermost: the accumulator is zeroed where the block index is 0 and the output is stored where it is 42), where the
  output window is idle, and the region's invariant with the accumulator buffer named.
-/
import proofs.«176034_j64441689309584_1_alg».proof.Proof.Gen.Kernel.Launch
import proofs.«176034_j64441689309584_1_alg».proof.Proof.Gen.Kernel.Skeleton
import proofs.«176034_j64441689309584_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the scale row is
    fetched only when the column block changes; unfetched, the block index has not moved). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions over the grid -/

/-- "This is the first contraction block": the accumulator is zeroed. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 43 = 0 :=
  (by decide +kernel : ∀ t : Fin grid1.N, cond1_0 (grid1.coords t) ↔ t.val % 43 = 0)
/-- "This is the last contraction block": the output block is scaled and stored. -/
abbrev cond1_1 (i : grid1.Coords) : Prop := k1_cond2 i = 1#1
theorem hcond1_1 : ∀ t : Fin cfg1.N, cond1_1 (grid1.coords t) ↔ t.val % 43 = 42 :=
  (by decide +kernel : ∀ t : Fin grid1.N, cond1_1 (grid1.coords t) ↔ t.val % 43 = 42)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Except at the last contraction block nothing is stored into the output window: idle, not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev VO1_3 : View sig .tc .vmem S1024x1024 .f32 := (Memref.whole cc1_stg3_0 : Memref sig .tc .vmem S1024x1024 .f32).view
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x1024 .f32 := Memref.whole cc1_scratch0
abbrev VS1_0 : View sig .tc .vmem S1024x1024 .f32 := scM1_0.view

/-- The scoped buffers of the core that are no staging buffer of this region, the accumulator's place held by `X`: the
    others (the other region's buffers) each whole at some contents, never looked at. -/
abbrev Sc1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)
/-- The same buffers without the accumulator. -/
abbrev Pre1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
theorem Sc1_split (c : Dev nD) (X : sProp 𝕄) : Sc1 c X ⊢ iprop(Pre1 c ∗ X) := by
  iintro ⟨R0, R1, R2, R3, R4, R5, R6, R7, R8, R9, R10, R11, R12, R13, HX⟩
  isplitr [HX]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  iexact HX
theorem Sc1_join (c : Dev nD) (X : sProp 𝕄) : iprop(Pre1 c ∗ X) ⊢ Sc1 c X := by
  iintro ⟨⟨R0, R1, R2, R3, R4, R5, R6, R7, R8, R9, R10, R11, R12, R13⟩, HX⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  iexact HX

/-- The region's plain invariant with the accumulator as a memref owned at some contents. -/
theorem PhiA1_eq (c : Dev nD) :
    (Pipeline.ΦA spec1 c : sProp 𝕄)
      = iprop(Sc1 c iprop(∃ d, owns (c : Thread nD τ) scM1_0 fullShare d) ∗ (∃ r, prngReg c r)) := by
  unfold Pipeline.ΦA; rw [scopedRest1_eq]; simp only [scM1_0, owns_whole]; try rfl

end Cert.Kernel.Fr

end
-- ==== Proof.K.R1RunA.lean ====
/-
  The down-projection kernel's body at a point of the FIRST contraction block (the accumulator is zeroed, then the block's product is added): run once on whole staging memrefs; the pieces the accumulator
  buffer ends with are what the run finds. Nothing is stored into the output window at such a point.
-/
import proofs.«176034_j64441689309584_1_alg».proof.Proof.K.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun1_A (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x256 .bf16) (x1 : Vec F S1024x256 .i32) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg3 harg3 arg4 harg4 arg5 harg5 arg6 harg6 arg7 harg7) K } := by
  refine ⟨[], ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R1RunB.lean ====
/-
  The down-projection kernel's body at a point of a MIDDLE contraction block (the block's product is added to the accumulator carried over from the point before): run once on whole staging memrefs; the pieces the accumulator
  buffer ends with are what the run finds. Nothing is stored into the output window at such a point.
-/
import proofs.«176034_j64441689309584_1_alg».proof.Proof.K.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun1_B (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x256 .bf16) (x1 : Vec F S1024x256 .i32) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg3 harg3 arg4 harg4 arg5 harg5 arg6 harg6 arg7 harg7) K } := by
  refine ⟨[], ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R1RunC.lean ====
/-
  The down-projection kernel's body at a point of the LAST contraction block (the block's product is added to the
  accumulator carried over from the point before, and the accumulator times the scale row is stored as the output block):
  run once on whole staging memrefs; the pieces the output buffer and the accumulator buffer end with are what the run finds.
-/
import proofs.«176034_j64441689309584_1_alg».proof.Proof.K.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun1_C (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x256 .bf16) (x1 : Vec F S1024x256 .i32) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg3 harg3 arg4 harg4 arg5 harg5 arg6 harg6 arg7 harg7) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.K.R1Frame.lean ====
/-
  Region 1's frame data. What each case of the body leaves in the output buffer and in the accumulator (the run's
  pieces read back); the ACCUMULATION `outsAt1`: by recursion on the grid point, the contents at a first contraction
  block from nothing (the accumulator is zeroed there), at a later block from what the point before left in the
  accumulator; the region's invariant carrying the accumulator's named contents from one point to the next; the
  pipeline's proof data; the body obligation at every point; and that the invariant starts as the plain one and ends
  as it.
-/
import proofs.«176034_j64441689309584_1_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

def out1_A_3 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x256 .bf16) (x1 : Vec F S1024x256 .i32) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)
theorem scover1_A_0 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x256 .bf16) (x1 : Vec F S1024x256 .i32) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
def sout1_A_0 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x256 .bf16) (x1 : Vec F S1024x256 .i32) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

def out1_B_3 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x256 .bf16) (x1 : Vec F S1024x256 .i32) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B_0 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x256 .bf16) (x1 : Vec F S1024x256 .i32) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
def sout1_B_0 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x256 .bf16) (x1 : Vec F S1024x256 .i32) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

theorem cover1_C_3 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x256 .bf16) (x1 : Vec F S1024x256 .i32) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y
def out1_C_3 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x256 .bf16) (x1 : Vec F S1024x256 .i32) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C_0 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x256 .bf16) (x1 : Vec F S1024x256 .i32) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
def sout1_C_0 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x256 .bf16) (x1 : Vec F S1024x256 .i32) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

section Region1
variable (V : (c : Dev nD) → (b : Ref sig .tc) → Buf (Elt F) ((c : Thread nD τ).loc b))

/-! ## Point by point -/

theorem hA1 (t : Fin cfg1.N) (h0 : t.val % 43 = 0) : cond1_0 (grid1.coords t) ∧ ¬cond1_1 (grid1.coords t) :=
  ⟨(hcond1_0 t).mpr h0, fun h => by have := (hcond1_1 t).mp h; omega⟩
theorem hB1 (t : Fin cfg1.N) (h0 : ¬t.val % 43 = 0) (h1 : ¬t.val % 43 = 42) : ¬cond1_0 (grid1.coords t) ∧ ¬cond1_1 (grid1.coords t) :=
  ⟨fun h => h0 ((hcond1_0 t).mp h), fun h => h1 ((hcond1_1 t).mp h)⟩
theorem hC1 (t : Fin cfg1.N) (h1 : t.val % 43 = 42) : ¬cond1_0 (grid1.coords t) ∧ cond1_1 (grid1.coords t) :=
  ⟨fun h => by have := (hcond1_0 t).mp h; omega, (hcond1_1 t).mpr h1⟩

/-- A first contraction block: (the output's placeholder, the accumulator) after the body. -/
def caseA1 (c : Dev nD) (t : Fin cfg1.N) (h0 : t.val % 43 = 0) : Vec F S1024x1024 .f32 × Vec F S1024x1024 .f32 :=
  (out1_A_3 c (grid1.coords t) (ms1_0 t) (hs1_0 t) (ms1_1 t) (hs1_1 t) (ms1_2 t) (hs1_2 t) (ms1_3 t) (hs1_3 t) scM1_0 (Memref.isWhole_whole _) (hA1 t h0).1 (hA1 t h0).2 (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) (hA1 t h0).1 (hA1 t h0).2 (iblk1 V c 0 t) (iblk1 V c 1 t) (iblk1 V c 2 t))
/-- A middle contraction block, over the accumulator `p0` the point before left. -/
def caseB1 (c : Dev nD) (t : Fin cfg1.N) (h0 : ¬t.val % 43 = 0) (h1 : ¬t.val % 43 = 42) (p0 : Vec F S1024x1024 .f32) : Vec F S1024x1024 .f32 × Vec F S1024x1024 .f32 :=
  (out1_B_3 c (grid1.coords t) (ms1_0 t) (hs1_0 t) (ms1_1 t) (hs1_1 t) (ms1_2 t) (hs1_2 t) (ms1_3 t) (hs1_3 t) scM1_0 (Memref.isWhole_whole _) (hB1 t h0 h1).1 (hB1 t h0 h1).2 (iblk1 V c 0 t) (iblk1 V c 1 t) (iblk1 V c 2 t) p0,
   sout1_B_0 c (grid1.coords t) (ms1_0 t) (hs1_0 t) (ms1_1 t) (hs1_1 t) (ms1_2 t) (hs1_2 t) (ms1_3 t) (hs1_3 t) scM1_0 (Memref.isWhole_whole _) (hB1 t h0 h1).1 (hB1 t h0 h1).2 (iblk1 V c 0 t) (iblk1 V c 1 t) (iblk1 V c 2 t) p0)
/-- The last contraction block, over the accumulator `p0` the point before left. -/
def caseC1 (c : Dev nD) (t : Fin cfg1.N) (h1 : t.val % 43 = 42) (p0 : Vec F S1024x1024 .f32) : Vec F S1024x1024 .f32 × Vec F S1024x1024 .f32 :=
  (out1_C_3 c (grid1.coords t) (ms1_0 t) (hs1_0 t) (ms1_1 t) (hs1_1 t) (ms1_2 t) (hs1_2 t) (ms1_3 t) (hs1_3 t) scM1_0 (Memref.isWhole_whole _) (hC1 t h1).1 (hC1 t h1).2 (iblk1 V c 0 t) (iblk1 V c 1 t) (iblk1 V c 2 t) p0,
   sout1_C_0 c (grid1.coords t) (ms1_0 t) (hs1_0 t) (ms1_1 t) (hs1_1 t) (ms1_2 t) (hs1_2 t) (ms1_3 t) (hs1_3 t) scM1_0 (Memref.isWhole_whole _) (hC1 t h1).1 (hC1 t h1).2 (iblk1 V c 0 t) (iblk1 V c 1 t) (iblk1 V c 2 t) p0)

/-- THE ACCUMULATION: what the output's staging buffer and the accumulator hold after the body at position `n`. -/
def outsAt1 (c : Dev nD) : (n : ℕ) → n < cfg1.N → Vec F S1024x1024 .f32 × Vec F S1024x1024 .f32
  | 0, hn => caseA1 V c ⟨0, hn⟩ (Nat.zero_mod _)
  | n + 1, hn =>
    if h0 : (n + 1) % 43 = 0 then caseA1 V c ⟨n + 1, hn⟩ h0
    else if h1 : (n + 1) % 43 = 42 then caseC1 V c ⟨n + 1, hn⟩ h1 (outsAt1 c n (Nat.lt_of_succ_lt hn)).2
    else caseB1 V c ⟨n + 1, hn⟩ h0 h1 (outsAt1 c n (Nat.lt_of_succ_lt hn)).2

theorem outsAt1_A (c : Dev nD) (t : Fin cfg1.N) (h0 : t.val % 43 = 0) :
    outsAt1 V c t.val t.isLt = caseA1 V c t h0 := by
  obtain ⟨n, hn⟩ := t
  cases n with
  | zero => exact rfl
  | succ n => exact (dif_pos h0).trans rfl
theorem outsAt1_B (c : Dev nD) (t : Fin cfg1.N) (h0 : ¬t.val % 43 = 0) (h1 : ¬t.val % 43 = 42) :
    outsAt1 V c t.val t.isLt = caseB1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h1 : t.val % 43 = 42) :
    outsAt1 V c t.val t.isLt = caseC1 V c t h1 (outsAt1 V c (t.val - 1) (Nat.lt_of_le_of_lt (Nat.sub_le _ _) t.isLt)).2 := by
  obtain ⟨n, hn⟩ := t
  cases n with
  | zero => exact (by exfalso; (try dsimp only at h1); omega)
  | succ n => exact (dif_neg (by (try dsimp only at h1); omega)).trans ((dif_pos h1).trans rfl)

/-- The region's invariant before position `n`: before the first point the plain one (every scoped buffer at
    anything); afterwards the accumulator at what the point before left in it. -/
def PhiS1 (c : Dev nD) : (n : ℕ) → n ≤ cfg1.N → sProp 𝕄
  | 0, _ => Pipeline.ΦA spec1 c
  | n + 1, hn => iprop(Sc1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(Sc1 c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(Sc1 c (owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point. The inputs' memrefs hold their blocks; the contraction block's index (the point modulo 43)
    says which case it is in; the invariant hands the body the accumulator (at anything before the first point, else at
    what the point before left) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 344 := lt_of_lt_of_eq t.isLt (show cfg1.N = 344 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 43 = 0
  · rw [Dat.leavesExact_idle (dat1 V c) 3 t (idleAt1_3_A t (hA1 t h0).1 (hA1 t h0).2) (noFlush1_3_A t (hA1 t h0).1 (hA1 t h0).2)]
    rw [outsAt1_A V c t h0]
    unfold caseA1 sout1_A_0; (try dsimp only)
    by_cases hz : t.val = 0
    · rw [PhiS1_castSucc V c t, PhiS1_zero V c _ _ hz, PhiA1_eq]
      iintro ⟨⟨HSc, Hg⟩, Ho, ⟨%d0, H0⟩, ⟨%d1, H1⟩, ⟨%d2, H2⟩, ⟨%d3, H3⟩⟩
      ihave HSc' := (Sc1_split c _) $$ HSc
      icases HSc' with ⟨HP, HS0⟩
      iapply ((kernelRun1_A c (grid1.coords t) (ms1_0 t) (hs1_0 t) (ms1_1 t) (hs1_1 t) (ms1_2 t) (hs1_2 t) (ms1_3 t) (hs1_3 t) scM1_0 (Memref.isWhole_whole _) (hA1 t h0).1 (hA1 t h0).2 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HP HS0 Hg]
      · isplitr [Hg]
        · iapply (Sc1_join c _)
          isplitl [HP]; · iexact HP
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HSc, Hg⟩, Ho, ⟨%d0, H0⟩, ⟨%d1, H1⟩, ⟨%d2, H2⟩, ⟨%d3, H3⟩⟩
      ihave HSc' := (Sc1_split c _) $$ HSc
      icases HSc' with ⟨HP, HS0⟩
      iapply ((kernelRun1_A c (grid1.coords t) (ms1_0 t) (hs1_0 t) (ms1_1 t) (hs1_1 t) (ms1_2 t) (hs1_2 t) (ms1_3 t) (hs1_3 t) scM1_0 (Memref.isWhole_whole _) (hA1 t h0).1 (hA1 t h0).2 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HP HS0 Hg]
      · isplitr [Hg]
        · iapply (Sc1_join c _)
          isplitl [HP]; · iexact HP
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 43 = 42
    · rw [show (dat1 V c).leavesExact 3 t = owns (c : Thread nD τ) (ms1_3 t) fullShare ((dat1 V c).after 3 t) from by
        unfold Dat.leavesExact; rw [liveAt1_3_C t (hC1 t h1).1 (hC1 t h1).2], after1_3]
      rw [outsAt1_C V c t h1]
      unfold caseC1 out1_C_3 sout1_C_0; (try dsimp only)
      rw [PhiS1_castSucc V c t, PhiS1_pos V c _ _ hz]
      iintro ⟨⟨HSc, Hg⟩, Ho, ⟨%d0, H0⟩, ⟨%d1, H1⟩, ⟨%d2, H2⟩, ⟨%d3, H3⟩⟩
      ihave HSc' := (Sc1_split c _) $$ HSc
      icases HSc' with ⟨HP, HS0⟩
      iapply ((kernelRun1_C c (grid1.coords t) (ms1_0 t) (hs1_0 t) (ms1_1 t) (hs1_1 t) (ms1_2 t) (hs1_2 t) (ms1_3 t) (hs1_3 t) scM1_0 (Memref.isWhole_whole _) (hC1 t h1).1 (hC1 t h1).2 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HP HS0 Hg]
      · isplitr [Hg]
        · iapply (Sc1_join c _)
          isplitl [HP]; · iexact HP
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (hB1 t h0 h1).1 (hB1 t h0 h1).2) (noFlush1_3_B t (hB1 t h0 h1).1 (hB1 t h0 h1).2)]
      rw [outsAt1_B V c t h0 h1]
      unfold caseB1 sout1_B_0; (try dsimp only)
      rw [PhiS1_castSucc V c t, PhiS1_pos V c _ _ hz]
      iintro ⟨⟨HSc, Hg⟩, Ho, ⟨%d0, H0⟩, ⟨%d1, H1⟩, ⟨%d2, H2⟩, ⟨%d3, H3⟩⟩
      ihave HSc' := (Sc1_split c _) $$ HSc
      icases HSc' with ⟨HP, HS0⟩
      iapply ((kernelRun1_B c (grid1.coords t) (ms1_0 t) (hs1_0 t) (ms1_1 t) (hs1_1 t) (ms1_2 t) (hs1_2 t) (ms1_3 t) (hs1_3 t) scM1_0 (Memref.isWhole_whole _) (hB1 t h0 h1).1 (hB1 t h0 h1).2 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HP HS0 Hg]
      · isplitr [Hg]
        · iapply (Sc1_join c _)
          isplitl [HP]; · iexact HP
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-! ## The invariant at the region's ends -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HSc, Hg⟩
  ihave HSc' := (Sc1_split c _) $$ HSc
  icases HSc' with ⟨HP, HS0⟩
  isplitr [Hg]
  · iapply (Sc1_join c _)
    isplitl [HP]; · iexact HP
    iexists _; iexact HS0
  iexact Hg
theorem hout1 (c : Dev nD) : (dat1 V c).Φ (Fin.last cfg1.N) ⊢ Pipeline.ΦA spec1 c :=
  Phi_out1 V c _ (by rw [Fin.val_last]; have : cfg1.N = 344 := N_1; omega)

end Region1

end Cert.Kernel.Fr

end
-- ==== Proof.K.Main.lean ====
/-
  The run of @main: two reshapes of the scale vectors, the gate/up region, a reshape of the third scale vector, the
  down-projection region. The contents of the core's unscoped buffers are followed from the launch memory through the
  four items (a host stretch applies its operations; a region leaves its arrays at what its write-backs leave and
  every other buffer as it was); each region is entered with the plain invariant and left with it; and every weakly fair
  execution terminates with every unscoped buffer at the last of these contents — in particular the result array at
  what the second region's write-backs leave, and every argument array as launched.
-/
import proofs.«176034_j64441689309584_1_alg».proof.Proof.K.R0Frame
import proofs.«176034_j64441689309584_1_alg».proof.Proof.K.R1Frame
import proofs.«176034_j64441689309584_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- Region 0 is entered after the first host stretch. -/
abbrev Vr1 : (c : Dev nD) → (b : Ref sig .tc) → Buf (Elt F) ((c : Thread nD τ).loc b) := fun c b => V1 m c b
/-- After region 0: its arrays at what the pipeline leaves, every other buffer as entered. -/
def W2 (c : Dev nD) : Valuation τ sig (Elt F) :=
  Pipeline.withArrays spec0 c (V1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
abbrev Vr2 : (c : Dev nD) → (b : Ref sig .tc) → Buf (Elt F) ((c : Thread nD τ).loc b) := fun c b => W2 m c b
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

/-- After the second host stretch (region 1 is entered here). -/
def W3 (c : Dev nD) : Valuation τ sig (Elt F) := StableHlo.after hostOps1 (W2 m c)
theorem W3_of (c : Dev nD) (r : Ref sig .tc) (h : r ∉ hostOps1_W) : W3 m c r = W2 m c r :=
  StableHlo.after_of_writes_sub hostOps1 _ hostOps1_writes h
abbrev Vr3 : (c : Dev nD) → (b : Ref sig .tc) → Buf (Elt F) ((c : Thread nD τ).loc b) := fun c b => W3 m c b
/-- After region 1. -/
def W4 (c : Dev nD) : Valuation τ sig (Elt F) :=
  Pipeline.withArrays spec1 c (W3 m c) fun w => (dat1 (Vr3 m) c).arrAt w cfg1.N
theorem W4_arr (c : Dev nD) (w : Fin cfg1.W) :
    W4 m c (Proc.devRef .tc (Pipeline.arrRef spec1 w)) = (dat1 (Vr3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vr4 : (c : Dev nD) → (b : Ref sig .tc) → Buf (Elt F) ((c : Thread nD τ).loc b) := fun c b => W4 m c b
theorem hF1 (c : Dev nD) (w : Fin cfg1.W) : (dat1 (Vr3 m) c).arrAt w cfg1.N = Vr4 m c (Pipeline.arrRef spec1 w) :=
  (W4_arr m c w).symm
theorem hrest1 (c : Dev nD) : ∀ b, b ∉ Finset.univ.image (Pipeline.arrRef spec1) → Vr4 m c b = Vr3 m c b :=
  fun b hb => W4_of_ne m c b fun w e => hb (Finset.mem_image.mpr ⟨w, Finset.mem_univ _, e⟩)

/-! ### No item writes an argument array: a region reads it through an input window or never touches it, and the host
    stretches write only the reshaped scale rows -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = V1 m c (Proc.devRef .tc main_arg0) := (W2_arr m c 0).trans (((dat0 (Vr1 m) c).arrAt_in 0 rfl _).trans (A_eq0 (Vr1 m) c 0))
    _ = V0 m c (Proc.devRef .tc main_arg0) := V1_of m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = V1 m c (Proc.devRef .tc main_arg1) := (W2_arr m c 1).trans (((dat0 (Vr1 m) c).arrAt_in 1 rfl _).trans (A_eq0 (Vr1 m) c 1))
    _ = V0 m c (Proc.devRef .tc main_arg1) := V1_of m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = V1 m c (Proc.devRef .tc main_arg2) := (W2_arr m c 2).trans (((dat0 (Vr1 m) c).arrAt_in 2 rfl _).trans (A_eq0 (Vr1 m) c 2))
    _ = V0 m c (Proc.devRef .tc main_arg2) := V1_of m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 1).trans (((dat1 (Vr3 m) c).arrAt_in 1 rfl _).trans (A_eq1 (Vr3 m) c 1))
    _ = W2 m c (Proc.devRef .tc main_arg3) := W3_of m c main_arg3 (by decide)
    _ = V1 m c (Proc.devRef .tc main_arg3) := W2_of_ne m c main_arg3 (by decide)
    _ = V0 m c (Proc.devRef .tc main_arg3) := V1_of m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = V1 m c (Proc.devRef .tc main_arg4) := W2_of_ne m c main_arg4 (by decide)
    _ = V0 m c (Proc.devRef .tc main_arg4) := V1_of m c main_arg4 (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of m c main_arg5 (by decide)
    _ = V1 m c (Proc.devRef .tc main_arg5) := W2_of_ne m c main_arg5 (by decide)
    _ = V0 m c (Proc.devRef .tc main_arg5) := V1_of m c main_arg5 (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of m c main_arg6 (by decide)
    _ = V1 m c (Proc.devRef .tc main_arg6) := W2_of_ne m c main_arg6 (by decide)
    _ = V0 m c (Proc.devRef .tc main_arg6) := V1_of m c main_arg6 (by decide)
    _ = m ((c : Thread nD τ).loc main_arg6) := rfl

/-- The result array ends at what region 1's write-backs leave. -/
theorem W4_main_v4 (c : Dev nD) : W4 m c (Proc.devRef .tc main_v4) = (dat1 (Vr3 m) c).arrAt 3 cfg1.N := W4_arr m c 3

/-! ## The proof data family and the thread state -/

/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (Vr1 m) c
  | ⟨1, _⟩ => fun c => dat1 (Vr3 m) c
/-- No core owes another anything. -/
abbrev Lz : GSem nD τ sig → Finset Unit := fun _ => ∅
abbrev lvz : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)
/-- A host stretch as a segment over the unscoped buffers. -/
abbrev hsegOf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tn (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0 over the thread state: entered with every unscoped buffer at `V1`, left with them at `W2`. Its
    arrays are split out of the unscoped buffers and put back at what the write-backs leave; the generator register and the
    scoped buffers go into the region's invariant (the plain one at the first point) and come back out of it (the plain one
    again, the accumulators' named contents forgotten); nothing is owed; the kernel has no semaphore of its own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ Lz lvz 0 fun _ _ => rfl
  pre c := iprop(StableHlo.held (c : Thread nD τ) (Pipeline.ucRefs τ sig) (V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := Pipeline.UD sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at `W3`, left with them at `W4`. Its
    arrays are split out of the unscoped buffers and put back at what the write-backs leave; the generator register and the
    scoped buffers go into the region's invariant (the plain one at the first point) and come back out of it (the plain one
    again, the accumulators' named contents forgotten); nothing is owed; the kernel has no semaphore of its own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ Lz lvz 1 fun _ _ => rfl
  pre c := iprop(StableHlo.held (c : Thread nD τ) (Pipeline.ucRefs τ sig) (W3 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (Vr3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vr3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Vr3 m c) (Vr4 m c) ((pdats m 1 c).arrAt · cfg1.N) (hF1 m c) (hrest1 m c)
    rw [Pipeline.unscopedBufs_held] at hjoin
    iintro ⟨Ha, HO, HY, Hrest⟩
    imodintro
    isplitr [HO]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsF : List (Pipeline.Seg (pcfgs (F := F)) adm (pdats m) () defs₀ Variants.none Lz lvz) :=
  [ .host (hsegOf hostOps0 hostOps0_sub hostOps0_fresh (V0 m)),
    .region (reg0 m),
    .host (hsegOf hostOps1 hostOps1_sub hostOps1_fresh (W2 m)),
    .region (reg1 m) ]
theorem main_run (c : Dev nD) : main (F := F) c = Pipeline.Seg.run (segsF m) := (main_chain c).trans (by chain_rfl)

set_option backward.isDefEq.respectTransparency.types false in
/-- THE RUN: from any memory with zero counters every weakly fair execution of @main terminates, nothing faulting, and
    every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj embL defs₀ Variants.none Lz lvz m ρ main (segsF m)
    (fun c Q => by rw [main_run m c])
    (by simp only [segsF, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tn m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The same run read at the result array and the seven argument arrays. -/
theorem run_post : θ_run defs (onTc (τ := τ) (main (F := F))) ⟨m, fun _ => 0, ρ⟩ (fun r => ∀ c : Dev nD,
      r.2.mem ((c.tc : Thread nD τ).loc main_v4) = (dat1 (Vr3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v4 (by decide))).trans (W4_main_v4 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_post m ρ)

end Cert.Kernel.Fr

end
-- ==== Proof.KI.R0Base.lean ====
/-
  Region 0 (the gate/up kernel) at the contents `V` the region is entered with: each window's block at a grid
  point, the two branch conditions of the body in closed form (the grid is 4 × 43 × 2 with the contraction block
  innermost, so the accumulators are zeroed at the even points and the output is stored at the odd ones), where the
  output window is idle, and the region's invariant with the two accumulator buffers named.
-/
import proofs.«176034_j64441689309584_1_alg».proof.Proof.Gen.KernelIdeal.Launch
import proofs.«176034_j64441689309584_1_alg».proof.Proof.Gen.KernelIdeal.Skeleton
import proofs.«176034_j64441689309584_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (the two scale rows
    are fetched only when the column block changes; unfetched, the block index has not moved). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two conditions over the grid -/

/-- "This is the first contraction block": the accumulators are zeroed. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- "This is the last contraction block": the output block is computed and stored. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At the even points nothing is stored into the output window: it is idle there and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At the odd points the output window is live. -/
theorem liveAt0_5_B : ∀ t : Fin cfg0.N, ¬cond0_0 (grid0.coords t) → cond0_1 (grid0.coords t) → cfg0.idle 5 (grid0.coords t) = false := by decide +kernel

/-! ## The memrefs the body is called with -/

abbrev VO0_5 : View sig .tc .vmem S512x256 .bf16 := (Memref.whole cc0_stg5_0 : Memref sig .tc .vmem S512x256 .bf16).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
/-- The two accumulators (gate and up): whole scoped buffers of the kernel's own. -/
abbrev scM0_0 : Memref sig .tc .vmem S512x256 .f32 := Memref.whole cc0_scratch0
abbrev scM0_1 : Memref sig .tc .vmem S512x256 .f32 := Memref.whole cc0_scratch1
abbrev VS0_0 : View sig .tc .vmem S512x256 .f32 := scM0_0.view
abbrev VS0_1 : View sig .tc .vmem S512x256 .f32 := scM0_1.view

/-- The scoped buffers of the core that are neither a staging buffer nor an accumulator of this region (they are the
    other region's), each whole at some contents: the region never looks at them. -/
abbrev Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's plain invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA; rw [scopedRest0_eq]; simp only [scM0_0, scM0_1, owns_whole]; try rfl

end Cert.KernelIdeal.Fr

end
-- ==== Proof.KI.R0RunA.lean ====
/-
  The gate/up kernel's body at a point of the FIRST contraction block (the accumulators are zeroed, then the block's
  two products are added; nothing is stored into the output window): run once on whole staging memrefs. The pieces
  the two accumulator buffers end with are what the run finds.
-/
import proofs.«176034_j64441689309584_1_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- Case A (first contraction block): inputs at their contents, the idle output handed back untouched, the two
    accumulators at anything on entry and at their written pieces on exit. -/
noncomputable def kernelRun0_A (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x2048 .f32) (x1 : Vec F S256x2048 .i32) (x2 : Vec F S256x2048 .i32) (x3 : Vec F S1x256 .f32) (x4 : Vec F S1x256 .f32) :
    Σ' (L5 : List (View.Piece (Elt F) S512x256 .bf16)) (LS0 : List (View.Piece (Elt F) S512x256 .f32)), { LS1 : List (View.Piece (Elt F) S512x256 .f32) //
      ∀ (xi5 : Vec F S512x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8 arg9 harg9 arg10 harg10) K } := by
  refine ⟨[], ?_, ?_, fun xi5 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Fr

end
-- ==== Proof.KI.R0RunB.lean ====
/-
  The gate/up kernel's body at a point of the LAST contraction block (the accumulators are carried over from the point
  before, the block's two products are added, and the output block — the gated product of the two scaled accumulators —
  is stored): run once on whole staging memrefs. The pieces the output buffer and the two accumulator buffers end with
  are what the run finds.
-/
import proofs.«176034_j64441689309584_1_alg».proof.Proof.KI.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- Case B (last contraction block): inputs at their contents, the output at anything on entry, the two accumulators
    at what the point before left (`xs0`, `xs1`); on exit each of the three at its written pieces. -/
noncomputable def kernelRun0_B (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) :
    Σ' (L5 : List (View.Piece (Elt F) S512x256 .bf16)) (LS0 : List (View.Piece (Elt F) S512x256 .f32)), { LS1 : List (View.Piece (Elt F) S512x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8 arg9 harg9 arg10 harg10) K } := by
  refine ⟨?_, ?_, ?_, fun E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; iexact HS1

end Cert.KernelIdeal.Fr

end
-- ==== Proof.KI.R0Frame.lean ====
/-
  Region 0's frame data. What each case of the body leaves in the output buffer and in the two accumulators (the
  run's pieces read back); the ACCUMULATION `outsAt0`: by recursion on the grid point, an even point's contents from
  nothing (the accumulators are zeroed there), an odd point's from what the even point before it left in the
  accumulators; the region's invariant carrying the accumulators' named contents from one point to the next; the
  pipeline's proof data; the body obligation at every point; and that the invariant starts as the plain one and ends
  as it.
-/
import proofs.«176034_j64441689309584_1_alg».proof.Proof.KI.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

def out0_A_5 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x2048 .f32) (x1 : Vec F S256x2048 .i32) (x2 : Vec F S256x2048 .i32) (x3 : Vec F S1x256 .f32) (x4 : Vec F S1x256 .f32) : Vec F S512x256 .bf16 :=
  VO0_5.read (Elt F) (VO0_5.writes (Elt F) VO0_5.junk (kernelRun0_A c i arg3 harg3 arg4 harg4 arg5 harg5 arg6 harg6 arg7 harg7 arg8 harg8 arg9 harg9 arg10 harg10 hc0 hc1 x0 x1 x2 x3 x4).1)
theorem scover0_A_0 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x2048 .f32) (x1 : Vec F S256x2048 .i32) (x2 : Vec F S256x2048 .i32) (x3 : Vec F S1x256 .f32) (x4 : Vec F S1x256 .f32) (y : S512x256.Idx) :
    ∃ pc ∈ (kernelRun0_A c i arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.1 S512x256.size (by sl_kernel_rfl) y
def sout0_A_0 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x2048 .f32) (x1 : Vec F S256x2048 .i32) (x2 : Vec F S256x2048 .i32) (x3 : Vec F S1x256 .f32) (x4 : Vec F S1x256 .f32) : Vec F S512x256 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4).2.1)
theorem scover0_A_1 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x2048 .f32) (x1 : Vec F S256x2048 .i32) (x2 : Vec F S256x2048 .i32) (x3 : Vec F S1x256 .f32) (x4 : Vec F S1x256 .f32) (y : S512x256.Idx) :
    ∃ pc ∈ (kernelRun0_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.2.1 S512x256.size (by sl_kernel_rfl) y
def sout0_A_1 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x2048 .f32) (x1 : Vec F S256x2048 .i32) (x2 : Vec F S256x2048 .i32) (x3 : Vec F S1x256 .f32) (x4 : Vec F S1x256 .f32) : Vec F S512x256 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3 x4).2.2.1)

theorem cover0_B_5 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) (y : S512x256.Idx) :
    ∃ pc ∈ (kernelRun0_B c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).1 S512x256.size (by sl_kernel_rfl) y
def out0_B_5 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) : Vec F S512x256 .bf16 :=
  VO0_5.read (Elt F) (VO0_5.writes (Elt F) VO0_5.junk (kernelRun0_B c i arg3 harg3 arg4 harg4 arg5 harg5 arg6 harg6 arg7 harg7 arg8 harg8 arg9 harg9 arg10 harg10 hc0 hc1 x0 x1 x2 x3 x4 xs0 xs1).1)
theorem scover0_B_0 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) (y : S512x256.Idx) :
    ∃ pc ∈ (kernelRun0_B c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).2.1 S512x256.size (by sl_kernel_rfl) y
def sout0_B_0 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) : Vec F S512x256 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 xs0 xs1).2.1)
theorem scover0_B_1 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) (y : S512x256.Idx) :
    ∃ pc ∈ (kernelRun0_B c i arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).2.2.1 S512x256.size (by sl_kernel_rfl) y
def sout0_B_1 (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) : Vec F S512x256 .f32 :=
  VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 x4 xs0 xs1).2.2.1)

section Region0
variable (V : (c : Dev nD) → (b : Ref sig .tc) → Buf (Elt F) ((c : Thread nD τ).loc b))

/-! ## Point by point -/

theorem hA0 (t : Fin cfg0.N) (h0 : t.val % 2 = 0) : cond0_0 (grid0.coords t) ∧ ¬cond0_1 (grid0.coords t) :=
  ⟨(hcond0_0 t).mpr h0, fun h => by have := (hcond0_1 t).mp h; omega⟩
theorem hB0 (t : Fin cfg0.N) (h1 : t.val % 2 = 1) : ¬cond0_0 (grid0.coords t) ∧ cond0_1 (grid0.coords t) :=
  ⟨fun h => by have := (hcond0_0 t).mp h; omega, (hcond0_1 t).mpr h1⟩

/-- An even point: (the output's placeholder, the gate accumulator, the up accumulator) after the body. -/
def caseA0 (c : Dev nD) (t : Fin cfg0.N) (h0 : t.val % 2 = 0) : Vec F S512x256 .bf16 × Vec F S512x256 .f32 × Vec F S512x256 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hA0 t h0).1 (hA0 t h0).2 (iblk0 V c 0 t) (iblk0 V c 1 t) (iblk0 V c 2 t) (iblk0 V c 3 t) (iblk0 V c 4 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hA0 t h0).1 (hA0 t h0).2 (iblk0 V c 0 t) (iblk0 V c 1 t) (iblk0 V c 2 t) (iblk0 V c 3 t) (iblk0 V c 4 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hA0 t h0).1 (hA0 t h0).2 (iblk0 V c 0 t) (iblk0 V c 1 t) (iblk0 V c 2 t) (iblk0 V c 3 t) (iblk0 V c 4 t))
/-- An odd point, over the accumulators `p0`, `p1` the point before left. -/
def caseB0 (c : Dev nD) (t : Fin cfg0.N) (h1 : t.val % 2 = 1) (p0 p1 : Vec F S512x256 .f32) : Vec F S512x256 .bf16 × Vec F S512x256 .f32 × Vec F S512x256 .f32 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hB0 t h1).1 (hB0 t h1).2 (iblk0 V c 0 t) (iblk0 V c 1 t) (iblk0 V c 2 t) (iblk0 V c 3 t) (iblk0 V c 4 t) p0 p1,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hB0 t h1).1 (hB0 t h1).2 (iblk0 V c 0 t) (iblk0 V c 1 t) (iblk0 V c 2 t) (iblk0 V c 3 t) (iblk0 V c 4 t) p0 p1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hB0 t h1).1 (hB0 t h1).2 (iblk0 V c 0 t) (iblk0 V c 1 t) (iblk0 V c 2 t) (iblk0 V c 3 t) (iblk0 V c 4 t) p0 p1)

/-- THE ACCUMULATION: what the output's staging buffer and the two accumulators hold after the body at position `n`. -/
def outsAt0 (c : Dev nD) : (n : ℕ) → n < cfg0.N → Vec F S512x256 .bf16 × Vec F S512x256 .f32 × Vec F S512x256 .f32
  | 0, hn => caseA0 V c ⟨0, hn⟩ (Nat.zero_mod _)
  | n + 1, hn =>
    if h0 : (n + 1) % 2 = 0 then caseA0 V c ⟨n + 1, hn⟩ h0
    else caseB0 V c ⟨n + 1, hn⟩ (by (try dsimp only); omega) (outsAt0 c n (Nat.lt_of_succ_lt hn)).2.1 (outsAt0 c n (Nat.lt_of_succ_lt hn)).2.2

theorem outsAt0_A (c : Dev nD) (t : Fin cfg0.N) (h0 : t.val % 2 = 0) :
    outsAt0 V c t.val t.isLt = caseA0 V c t h0 := by
  obtain ⟨n, hn⟩ := t
  cases n with
  | zero => exact rfl
  | succ n => exact (dif_pos h0).trans rfl
theorem outsAt0_B (c : Dev nD) (t : Fin cfg0.N) (h1 : t.val % 2 = 1) :
    outsAt0 V c t.val t.isLt = caseB0 V c t h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h1); omega)
  | succ n => exact (dif_neg (by (try dsimp only at h1); omega)).trans rfl

/-- The region's invariant before position `n`: before the first point the plain one (every scoped buffer at
    anything); afterwards the two accumulators at what the point before left in them. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ Rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ Rest0 c) ∗ (∃ r, prngReg c r)) := by
  cases n with
  | zero => exact absurd rfl hz
  | succ n => rfl

/-! ## The proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The inputs' memrefs hold their blocks; the parity of the point says which case it is in;
    the invariant hands the body the accumulators (at anything before the first point, else at what the point before
    left) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 344 := lt_of_lt_of_eq t.isLt (show cfg0.N = 344 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 2 = 0
  · rw [Dat.leavesExact_idle (dat0 V c) 5 t (idleAt0_5_A t (hA0 t h0).1 (hA0 t h0).2) (noFlush0_5_A t (hA0 t h0).1 (hA0 t h0).2)]
    rw [outsAt0_A V c t h0]
    unfold caseA0 sout0_A_0 sout0_A_1; (try dsimp only)
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hA0 t h0).1 (hA0 t h0).2 (iblk0 V c 0 t) (iblk0 V c 1 t) (iblk0 V c 2 t) (iblk0 V c 3 t) (iblk0 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hA0 t h0).1 (hA0 t h0).2 (iblk0 V c 0 t) (iblk0 V c 1 t) (iblk0 V c 2 t) (iblk0 V c 3 t) (iblk0 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    rw [show (dat0 V c).leavesExact 5 t = owns (c : Thread nD τ) (ms0_5 t) fullShare ((dat0 V c).after 5 t) from by
      unfold Dat.leavesExact; rw [liveAt0_5_B t (hB0 t h1).1 (hB0 t h1).2], after0_5]
    rw [outsAt0_B V c t h1]
    unfold caseB0 out0_B_5 sout0_B_0 sout0_B_1; (try dsimp only)
    have hz : t.val ≠ 0 := by omega
    rw [PhiS0_castSucc V c t, PhiS0_pos V c _ _ hz]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hB0 t h1).1 (hB0 t h1).2 (iblk0 V c 0 t) (iblk0 V c 1 t) (iblk0 V c 2 t) (iblk0 V c 3 t) (iblk0 V c 4 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, ⟨%es0, HS0⟩, ⟨%es1, HS1⟩⟩
    isplitl [HS0 HS1 HR Hg]
    · isplitr [Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-! ## The invariant at the region's ends -/

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitr [Hg]
  · isplitl [HS0]; · iexists _; iexact HS0
    isplitl [HS1]; · iexists _; iexact HS1
    iexact HR
  iexact Hg
theorem hout0 (c : Dev nD) : (dat0 V c).Φ (Fin.last cfg0.N) ⊢ Pipeline.ΦA spec0 c :=
  Phi_out0 V c _ (by rw [Fin.val_last]; have : cfg0.N = 344 := N_0; omega)

end Region0

end Cert.KernelIdeal.Fr

end
-- ==== Proof.KI.R1Base.lean ====
/-
  Region 1 (the down-projection kernel) at the contents `V` the region is entered with: each window's block at a grid
  point, the two branch conditions of the body in closed form (the grid is 2 × 4 × 43 with the contraction block
  innermost: the accumulator is zeroed where the block index is 0 and the output is stored where it is 42), where the
  output window is idle, and the region's invariant with the accumulator buffer named.
-/
import proofs.«176034_j64441689309584_1_alg».proof.Proof.Gen.KernelIdeal.Launch
import proofs.«176034_j64441689309584_1_alg».proof.Proof.Gen.KernelIdeal.Skeleton
import proofs.«176034_j64441689309584_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the scale row is
    fetched only when the column block changes; unfetched, the block index has not moved). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions over the grid -/

/-- "This is the first contraction block": the accumulator is zeroed. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 43 = 0 :=
  (by decide +kernel : ∀ t : Fin grid1.N, cond1_0 (grid1.coords t) ↔ t.val % 43 = 0)
/-- "This is the last contraction block": the output block is scaled and stored. -/
abbrev cond1_1 (i : grid1.Coords) : Prop := k1_cond2 i = 1#1
theorem hcond1_1 : ∀ t : Fin cfg1.N, cond1_1 (grid1.coords t) ↔ t.val % 43 = 42 :=
  (by decide +kernel : ∀ t : Fin grid1.N, cond1_1 (grid1.coords t) ↔ t.val % 43 = 42)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Except at the last contraction block nothing is stored into the output window: idle, not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev VO1_3 : View sig .tc .vmem S1024x1024 .f32 := (Memref.whole cc1_stg3_0 : Memref sig .tc .vmem S1024x1024 .f32).view
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x1024 .f32 := Memref.whole cc1_scratch0
abbrev VS1_0 : View sig .tc .vmem S1024x1024 .f32 := scM1_0.view

/-- The scoped buffers of the core that are no staging buffer of this region, the accumulator's place held by `X`: the
    others (the other region's buffers) each whole at some contents, never looked at. -/
abbrev Sc1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)
/-- The same buffers without the accumulator. -/
abbrev Pre1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
theorem Sc1_split (c : Dev nD) (X : sProp 𝕄) : Sc1 c X ⊢ iprop(Pre1 c ∗ X) := by
  iintro ⟨R0, R1, R2, R3, R4, R5, R6, R7, R8, R9, R10, R11, R12, R13, HX⟩
  isplitr [HX]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  iexact HX
theorem Sc1_join (c : Dev nD) (X : sProp 𝕄) : iprop(Pre1 c ∗ X) ⊢ Sc1 c X := by
  iintro ⟨⟨R0, R1, R2, R3, R4, R5, R6, R7, R8, R9, R10, R11, R12, R13⟩, HX⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  iexact HX

/-- The region's plain invariant with the accumulator as a memref owned at some contents. -/
theorem PhiA1_eq (c : Dev nD) :
    (Pipeline.ΦA spec1 c : sProp 𝕄)
      = iprop(Sc1 c iprop(∃ d, owns (c : Thread nD τ) scM1_0 fullShare d) ∗ (∃ r, prngReg c r)) := by
  unfold Pipeline.ΦA; rw [scopedRest1_eq]; simp only [scM1_0, owns_whole]; try rfl

end Cert.KernelIdeal.Fr

end
-- ==== Proof.KI.R1RunA.lean ====
/-
  The down-projection kernel's body at a point of the FIRST contraction block (the accumulator is zeroed, then the block's product is added): run once on whole staging memrefs; the pieces the accumulator
  buffer ends with are what the run finds. Nothing is stored into the output window at such a point.
-/
import proofs.«176034_j64441689309584_1_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun1_A (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x256 .bf16) (x1 : Vec F S1024x256 .i32) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg3 harg3 arg4 harg4 arg5 harg5 arg6 harg6 arg7 harg7) K } := by
  refine ⟨[], ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R1RunB.lean ====
/-
  The down-projection kernel's body at a point of a MIDDLE contraction block (the block's product is added to the accumulator carried over from the point before): run once on whole staging memrefs; the pieces the accumulator
  buffer ends with are what the run finds. Nothing is stored into the output window at such a point.
-/
import proofs.«176034_j64441689309584_1_alg».proof.Proof.KI.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun1_B (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x256 .bf16) (x1 : Vec F S1024x256 .i32) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg3 harg3 arg4 harg4 arg5 harg5 arg6 harg6 arg7 harg7) K } := by
  refine ⟨[], ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R1RunC.lean ====
/-
  The down-projection kernel's body at a point of the LAST contraction block (the block's product is added to the
  accumulator carried over from the point before, and the accumulator times the scale row is stored as the output block):
  run once on whole staging memrefs; the pieces the output buffer and the accumulator buffer end with are what the run finds.
-/
import proofs.«176034_j64441689309584_1_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun1_C (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x256 .bf16) (x1 : Vec F S1024x256 .i32) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg3 harg3 arg4 harg4 arg5 harg5 arg6 harg6 arg7 harg7) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.R1Frame.lean ====
/-
  Region 1's frame data. What each case of the body leaves in the output buffer and in the accumulator (the run's
  pieces read back); the ACCUMULATION `outsAt1`: by recursion on the grid point, the contents at a first contraction
  block from nothing (the accumulator is zeroed there), at a later block from what the point before left in the
  accumulator; the region's invariant carrying the accumulator's named contents from one point to the next; the
  pipeline's proof data; the body obligation at every point; and that the invariant starts as the plain one and ends
  as it.
-/
import proofs.«176034_j64441689309584_1_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

def out1_A_3 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x256 .bf16) (x1 : Vec F S1024x256 .i32) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)
theorem scover1_A_0 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x256 .bf16) (x1 : Vec F S1024x256 .i32) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
def sout1_A_0 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x256 .bf16) (x1 : Vec F S1024x256 .i32) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

def out1_B_3 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x256 .bf16) (x1 : Vec F S1024x256 .i32) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B_0 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x256 .bf16) (x1 : Vec F S1024x256 .i32) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
def sout1_B_0 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x256 .bf16) (x1 : Vec F S1024x256 .i32) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

theorem cover1_C_3 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x256 .bf16) (x1 : Vec F S1024x256 .i32) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y
def out1_C_3 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x256 .bf16) (x1 : Vec F S1024x256 .i32) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C_0 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x256 .bf16) (x1 : Vec F S1024x256 .i32) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
def sout1_C_0 (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x256 .bf16) (x1 : Vec F S1024x256 .i32) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

section Region1
variable (V : (c : Dev nD) → (b : Ref sig .tc) → Buf (Elt F) ((c : Thread nD τ).loc b))

/-! ## Point by point -/

theorem hA1 (t : Fin cfg1.N) (h0 : t.val % 43 = 0) : cond1_0 (grid1.coords t) ∧ ¬cond1_1 (grid1.coords t) :=
  ⟨(hcond1_0 t).mpr h0, fun h => by have := (hcond1_1 t).mp h; omega⟩
theorem hB1 (t : Fin cfg1.N) (h0 : ¬t.val % 43 = 0) (h1 : ¬t.val % 43 = 42) : ¬cond1_0 (grid1.coords t) ∧ ¬cond1_1 (grid1.coords t) :=
  ⟨fun h => h0 ((hcond1_0 t).mp h), fun h => h1 ((hcond1_1 t).mp h)⟩
theorem hC1 (t : Fin cfg1.N) (h1 : t.val % 43 = 42) : ¬cond1_0 (grid1.coords t) ∧ cond1_1 (grid1.coords t) :=
  ⟨fun h => by have := (hcond1_0 t).mp h; omega, (hcond1_1 t).mpr h1⟩

/-- A first contraction block: (the output's placeholder, the accumulator) after the body. -/
def caseA1 (c : Dev nD) (t : Fin cfg1.N) (h0 : t.val % 43 = 0) : Vec F S1024x1024 .f32 × Vec F S1024x1024 .f32 :=
  (out1_A_3 c (grid1.coords t) (ms1_0 t) (hs1_0 t) (ms1_1 t) (hs1_1 t) (ms1_2 t) (hs1_2 t) (ms1_3 t) (hs1_3 t) scM1_0 (Memref.isWhole_whole _) (hA1 t h0).1 (hA1 t h0).2 (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) (hA1 t h0).1 (hA1 t h0).2 (iblk1 V c 0 t) (iblk1 V c 1 t) (iblk1 V c 2 t))
/-- A middle contraction block, over the accumulator `p0` the point before left. -/
def caseB1 (c : Dev nD) (t : Fin cfg1.N) (h0 : ¬t.val % 43 = 0) (h1 : ¬t.val % 43 = 42) (p0 : Vec F S1024x1024 .f32) : Vec F S1024x1024 .f32 × Vec F S1024x1024 .f32 :=
  (out1_B_3 c (grid1.coords t) (ms1_0 t) (hs1_0 t) (ms1_1 t) (hs1_1 t) (ms1_2 t) (hs1_2 t) (ms1_3 t) (hs1_3 t) scM1_0 (Memref.isWhole_whole _) (hB1 t h0 h1).1 (hB1 t h0 h1).2 (iblk1 V c 0 t) (iblk1 V c 1 t) (iblk1 V c 2 t) p0,
   sout1_B_0 c (grid1.coords t) (ms1_0 t) (hs1_0 t) (ms1_1 t) (hs1_1 t) (ms1_2 t) (hs1_2 t) (ms1_3 t) (hs1_3 t) scM1_0 (Memref.isWhole_whole _) (hB1 t h0 h1).1 (hB1 t h0 h1).2 (iblk1 V c 0 t) (iblk1 V c 1 t) (iblk1 V c 2 t) p0)
/-- The last contraction block, over the accumulator `p0` the point before left. -/
def caseC1 (c : Dev nD) (t : Fin cfg1.N) (h1 : t.val % 43 = 42) (p0 : Vec F S1024x1024 .f32) : Vec F S1024x1024 .f32 × Vec F S1024x1024 .f32 :=
  (out1_C_3 c (grid1.coords t) (ms1_0 t) (hs1_0 t) (ms1_1 t) (hs1_1 t) (ms1_2 t) (hs1_2 t) (ms1_3 t) (hs1_3 t) scM1_0 (Memref.isWhole_whole _) (hC1 t h1).1 (hC1 t h1).2 (iblk1 V c 0 t) (iblk1 V c 1 t) (iblk1 V c 2 t) p0,
   sout1_C_0 c (grid1.coords t) (ms1_0 t) (hs1_0 t) (ms1_1 t) (hs1_1 t) (ms1_2 t) (hs1_2 t) (ms1_3 t) (hs1_3 t) scM1_0 (Memref.isWhole_whole _) (hC1 t h1).1 (hC1 t h1).2 (iblk1 V c 0 t) (iblk1 V c 1 t) (iblk1 V c 2 t) p0)

/-- THE ACCUMULATION: what the output's staging buffer and the accumulator hold after the body at position `n`. -/
def outsAt1 (c : Dev nD) : (n : ℕ) → n < cfg1.N → Vec F S1024x1024 .f32 × Vec F S1024x1024 .f32
  | 0, hn => caseA1 V c ⟨0, hn⟩ (Nat.zero_mod _)
  | n + 1, hn =>
    if h0 : (n + 1) % 43 = 0 then caseA1 V c ⟨n + 1, hn⟩ h0
    else if h1 : (n + 1) % 43 = 42 then caseC1 V c ⟨n + 1, hn⟩ h1 (outsAt1 c n (Nat.lt_of_succ_lt hn)).2
    else caseB1 V c ⟨n + 1, hn⟩ h0 h1 (outsAt1 c n (Nat.lt_of_succ_lt hn)).2

theorem outsAt1_A (c : Dev nD) (t : Fin cfg1.N) (h0 : t.val % 43 = 0) :
    outsAt1 V c t.val t.isLt = caseA1 V c t h0 := by
  obtain ⟨n, hn⟩ := t
  cases n with
  | zero => exact rfl
  | succ n => exact (dif_pos h0).trans rfl
theorem outsAt1_B (c : Dev nD) (t : Fin cfg1.N) (h0 : ¬t.val % 43 = 0) (h1 : ¬t.val % 43 = 42) :
    outsAt1 V c t.val t.isLt = caseB1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h1 : t.val % 43 = 42) :
    outsAt1 V c t.val t.isLt = caseC1 V c t h1 (outsAt1 V c (t.val - 1) (Nat.lt_of_le_of_lt (Nat.sub_le _ _) t.isLt)).2 := by
  obtain ⟨n, hn⟩ := t
  cases n with
  | zero => exact (by exfalso; (try dsimp only at h1); omega)
  | succ n => exact (dif_neg (by (try dsimp only at h1); omega)).trans ((dif_pos h1).trans rfl)

/-- The region's invariant before position `n`: before the first point the plain one (every scoped buffer at
    anything); afterwards the accumulator at what the point before left in it. -/
def PhiS1 (c : Dev nD) : (n : ℕ) → n ≤ cfg1.N → sProp 𝕄
  | 0, _ => Pipeline.ΦA spec1 c
  | n + 1, hn => iprop(Sc1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(Sc1 c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(Sc1 c (owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point. The inputs' memrefs hold their blocks; the contraction block's index (the point modulo 43)
    says which case it is in; the invariant hands the body the accumulator (at anything before the first point, else at
    what the point before left) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 344 := lt_of_lt_of_eq t.isLt (show cfg1.N = 344 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 43 = 0
  · rw [Dat.leavesExact_idle (dat1 V c) 3 t (idleAt1_3_A t (hA1 t h0).1 (hA1 t h0).2) (noFlush1_3_A t (hA1 t h0).1 (hA1 t h0).2)]
    rw [outsAt1_A V c t h0]
    unfold caseA1 sout1_A_0; (try dsimp only)
    by_cases hz : t.val = 0
    · rw [PhiS1_castSucc V c t, PhiS1_zero V c _ _ hz, PhiA1_eq]
      iintro ⟨⟨HSc, Hg⟩, Ho, ⟨%d0, H0⟩, ⟨%d1, H1⟩, ⟨%d2, H2⟩, ⟨%d3, H3⟩⟩
      ihave HSc' := (Sc1_split c _) $$ HSc
      icases HSc' with ⟨HP, HS0⟩
      iapply ((kernelRun1_A c (grid1.coords t) (ms1_0 t) (hs1_0 t) (ms1_1 t) (hs1_1 t) (ms1_2 t) (hs1_2 t) (ms1_3 t) (hs1_3 t) scM1_0 (Memref.isWhole_whole _) (hA1 t h0).1 (hA1 t h0).2 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HP HS0 Hg]
      · isplitr [Hg]
        · iapply (Sc1_join c _)
          isplitl [HP]; · iexact HP
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HSc, Hg⟩, Ho, ⟨%d0, H0⟩, ⟨%d1, H1⟩, ⟨%d2, H2⟩, ⟨%d3, H3⟩⟩
      ihave HSc' := (Sc1_split c _) $$ HSc
      icases HSc' with ⟨HP, HS0⟩
      iapply ((kernelRun1_A c (grid1.coords t) (ms1_0 t) (hs1_0 t) (ms1_1 t) (hs1_1 t) (ms1_2 t) (hs1_2 t) (ms1_3 t) (hs1_3 t) scM1_0 (Memref.isWhole_whole _) (hA1 t h0).1 (hA1 t h0).2 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HP HS0 Hg]
      · isplitr [Hg]
        · iapply (Sc1_join c _)
          isplitl [HP]; · iexact HP
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 43 = 42
    · rw [show (dat1 V c).leavesExact 3 t = owns (c : Thread nD τ) (ms1_3 t) fullShare ((dat1 V c).after 3 t) from by
        unfold Dat.leavesExact; rw [liveAt1_3_C t (hC1 t h1).1 (hC1 t h1).2], after1_3]
      rw [outsAt1_C V c t h1]
      unfold caseC1 out1_C_3 sout1_C_0; (try dsimp only)
      rw [PhiS1_castSucc V c t, PhiS1_pos V c _ _ hz]
      iintro ⟨⟨HSc, Hg⟩, Ho, ⟨%d0, H0⟩, ⟨%d1, H1⟩, ⟨%d2, H2⟩, ⟨%d3, H3⟩⟩
      ihave HSc' := (Sc1_split c _) $$ HSc
      icases HSc' with ⟨HP, HS0⟩
      iapply ((kernelRun1_C c (grid1.coords t) (ms1_0 t) (hs1_0 t) (ms1_1 t) (hs1_1 t) (ms1_2 t) (hs1_2 t) (ms1_3 t) (hs1_3 t) scM1_0 (Memref.isWhole_whole _) (hC1 t h1).1 (hC1 t h1).2 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HP HS0 Hg]
      · isplitr [Hg]
        · iapply (Sc1_join c _)
          isplitl [HP]; · iexact HP
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (hB1 t h0 h1).1 (hB1 t h0 h1).2) (noFlush1_3_B t (hB1 t h0 h1).1 (hB1 t h0 h1).2)]
      rw [outsAt1_B V c t h0 h1]
      unfold caseB1 sout1_B_0; (try dsimp only)
      rw [PhiS1_castSucc V c t, PhiS1_pos V c _ _ hz]
      iintro ⟨⟨HSc, Hg⟩, Ho, ⟨%d0, H0⟩, ⟨%d1, H1⟩, ⟨%d2, H2⟩, ⟨%d3, H3⟩⟩
      ihave HSc' := (Sc1_split c _) $$ HSc
      icases HSc' with ⟨HP, HS0⟩
      iapply ((kernelRun1_B c (grid1.coords t) (ms1_0 t) (hs1_0 t) (ms1_1 t) (hs1_1 t) (ms1_2 t) (hs1_2 t) (ms1_3 t) (hs1_3 t) scM1_0 (Memref.isWhole_whole _) (hB1 t h0 h1).1 (hB1 t h0 h1).2 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HP HS0 Hg]
      · isplitr [Hg]
        · iapply (Sc1_join c _)
          isplitl [HP]; · iexact HP
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-! ## The invariant at the region's ends -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HSc, Hg⟩
  ihave HSc' := (Sc1_split c _) $$ HSc
  icases HSc' with ⟨HP, HS0⟩
  isplitr [Hg]
  · iapply (Sc1_join c _)
    isplitl [HP]; · iexact HP
    iexists _; iexact HS0
  iexact Hg
theorem hout1 (c : Dev nD) : (dat1 V c).Φ (Fin.last cfg1.N) ⊢ Pipeline.ΦA spec1 c :=
  Phi_out1 V c _ (by rw [Fin.val_last]; have : cfg1.N = 344 := N_1; omega)

end Region1

end Cert.KernelIdeal.Fr

end
-- ==== Proof.KI.Main.lean ====
/-
  The run of @main: two reshapes of the scale vectors, the gate/up region, a reshape of the third scale vector, the
  down-projection region. The contents of the core's unscoped buffers are followed from the launch memory through the
  four items (a host stretch applies its operations; a region leaves its arrays at what its write-backs leave and
  every other buffer as it was); each region is entered with the plain invariant and left with it; and every weakly fair
  execution terminates with every unscoped buffer at the last of these contents — in particular the result array at
  what the second region's write-backs leave, and every argument array as launched.
-/
import proofs.«176034_j64441689309584_1_alg».proof.Proof.KI.R0Frame
import proofs.«176034_j64441689309584_1_alg».proof.Proof.KI.R1Frame
import proofs.«176034_j64441689309584_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- Region 0 is entered after the first host stretch. -/
abbrev Vr1 : (c : Dev nD) → (b : Ref sig .tc) → Buf (Elt F) ((c : Thread nD τ).loc b) := fun c b => V1 m c b
/-- After region 0: its arrays at what the pipeline leaves, every other buffer as entered. -/
def W2 (c : Dev nD) : Valuation τ sig (Elt F) :=
  Pipeline.withArrays spec0 c (V1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
abbrev Vr2 : (c : Dev nD) → (b : Ref sig .tc) → Buf (Elt F) ((c : Thread nD τ).loc b) := fun c b => W2 m c b
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

/-- After the second host stretch (region 1 is entered here). -/
def W3 (c : Dev nD) : Valuation τ sig (Elt F) := StableHlo.after hostOps1 (W2 m c)
theorem W3_of (c : Dev nD) (r : Ref sig .tc) (h : r ∉ hostOps1_W) : W3 m c r = W2 m c r :=
  StableHlo.after_of_writes_sub hostOps1 _ hostOps1_writes h
abbrev Vr3 : (c : Dev nD) → (b : Ref sig .tc) → Buf (Elt F) ((c : Thread nD τ).loc b) := fun c b => W3 m c b
/-- After region 1. -/
def W4 (c : Dev nD) : Valuation τ sig (Elt F) :=
  Pipeline.withArrays spec1 c (W3 m c) fun w => (dat1 (Vr3 m) c).arrAt w cfg1.N
theorem W4_arr (c : Dev nD) (w : Fin cfg1.W) :
    W4 m c (Proc.devRef .tc (Pipeline.arrRef spec1 w)) = (dat1 (Vr3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vr4 : (c : Dev nD) → (b : Ref sig .tc) → Buf (Elt F) ((c : Thread nD τ).loc b) := fun c b => W4 m c b
theorem hF1 (c : Dev nD) (w : Fin cfg1.W) : (dat1 (Vr3 m) c).arrAt w cfg1.N = Vr4 m c (Pipeline.arrRef spec1 w) :=
  (W4_arr m c w).symm
theorem hrest1 (c : Dev nD) : ∀ b, b ∉ Finset.univ.image (Pipeline.arrRef spec1) → Vr4 m c b = Vr3 m c b :=
  fun b hb => W4_of_ne m c b fun w e => hb (Finset.mem_image.mpr ⟨w, Finset.mem_univ _, e⟩)

/-! ### No item writes an argument array: a region reads it through an input window or never touches it, and the host
    stretches write only the reshaped scale rows -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = V1 m c (Proc.devRef .tc main_arg0) := (W2_arr m c 0).trans (((dat0 (Vr1 m) c).arrAt_in 0 rfl _).trans (A_eq0 (Vr1 m) c 0))
    _ = V0 m c (Proc.devRef .tc main_arg0) := V1_of m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = V1 m c (Proc.devRef .tc main_arg1) := (W2_arr m c 1).trans (((dat0 (Vr1 m) c).arrAt_in 1 rfl _).trans (A_eq0 (Vr1 m) c 1))
    _ = V0 m c (Proc.devRef .tc main_arg1) := V1_of m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = V1 m c (Proc.devRef .tc main_arg2) := (W2_arr m c 2).trans (((dat0 (Vr1 m) c).arrAt_in 2 rfl _).trans (A_eq0 (Vr1 m) c 2))
    _ = V0 m c (Proc.devRef .tc main_arg2) := V1_of m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 1).trans (((dat1 (Vr3 m) c).arrAt_in 1 rfl _).trans (A_eq1 (Vr3 m) c 1))
    _ = W2 m c (Proc.devRef .tc main_arg3) := W3_of m c main_arg3 (by decide)
    _ = V1 m c (Proc.devRef .tc main_arg3) := W2_of_ne m c main_arg3 (by decide)
    _ = V0 m c (Proc.devRef .tc main_arg3) := V1_of m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = V1 m c (Proc.devRef .tc main_arg4) := W2_of_ne m c main_arg4 (by decide)
    _ = V0 m c (Proc.devRef .tc main_arg4) := V1_of m c main_arg4 (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of m c main_arg5 (by decide)
    _ = V1 m c (Proc.devRef .tc main_arg5) := W2_of_ne m c main_arg5 (by decide)
    _ = V0 m c (Proc.devRef .tc main_arg5) := V1_of m c main_arg5 (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of m c main_arg6 (by decide)
    _ = V1 m c (Proc.devRef .tc main_arg6) := W2_of_ne m c main_arg6 (by decide)
    _ = V0 m c (Proc.devRef .tc main_arg6) := V1_of m c main_arg6 (by decide)
    _ = m ((c : Thread nD τ).loc main_arg6) := rfl

/-- The result array ends at what region 1's write-backs leave. -/
theorem W4_main_v4 (c : Dev nD) : W4 m c (Proc.devRef .tc main_v4) = (dat1 (Vr3 m) c).arrAt 3 cfg1.N := W4_arr m c 3

/-! ## The proof data family and the thread state -/

/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (Vr1 m) c
  | ⟨1, _⟩ => fun c => dat1 (Vr3 m) c
/-- No core owes another anything. -/
abbrev Lz : GSem nD τ sig → Finset Unit := fun _ => ∅
abbrev lvz : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)
/-- A host stretch as a segment over the unscoped buffers. -/
abbrev hsegOf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tn (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0 over the thread state: entered with every unscoped buffer at `V1`, left with them at `W2`. Its
    arrays are split out of the unscoped buffers and put back at what the write-backs leave; the generator register and the
    scoped buffers go into the region's invariant (the plain one at the first point) and come back out of it (the plain one
    again, the accumulators' named contents forgotten); nothing is owed; the kernel has no semaphore of its own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ Lz lvz 0 fun _ _ => rfl
  pre c := iprop(StableHlo.held (c : Thread nD τ) (Pipeline.ucRefs τ sig) (V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := Pipeline.UD sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at `W3`, left with them at `W4`. Its
    arrays are split out of the unscoped buffers and put back at what the write-backs leave; the generator register and the
    scoped buffers go into the region's invariant (the plain one at the first point) and come back out of it (the plain one
    again, the accumulators' named contents forgotten); nothing is owed; the kernel has no semaphore of its own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ Lz lvz 1 fun _ _ => rfl
  pre c := iprop(StableHlo.held (c : Thread nD τ) (Pipeline.ucRefs τ sig) (W3 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (Vr3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vr3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Vr3 m c) (Vr4 m c) ((pdats m 1 c).arrAt · cfg1.N) (hF1 m c) (hrest1 m c)
    rw [Pipeline.unscopedBufs_held] at hjoin
    iintro ⟨Ha, HO, HY, Hrest⟩
    imodintro
    isplitr [HO]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsF : List (Pipeline.Seg (pcfgs (F := F)) adm (pdats m) () defs₀ Variants.none Lz lvz) :=
  [ .host (hsegOf hostOps0 hostOps0_sub hostOps0_fresh (V0 m)),
    .region (reg0 m),
    .host (hsegOf hostOps1 hostOps1_sub hostOps1_fresh (W2 m)),
    .region (reg1 m) ]
theorem main_run (c : Dev nD) : main (F := F) c = Pipeline.Seg.run (segsF m) := (main_chain c).trans (by chain_rfl)

set_option backward.isDefEq.respectTransparency.types false in
/-- THE RUN: from any memory with zero counters every weakly fair execution of @main terminates, nothing faulting, and
    every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj embL defs₀ Variants.none Lz lvz m ρ main (segsF m)
    (fun c Q => by rw [main_run m c])
    (by simp only [segsF, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tn m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The same run read at the result array and the seven argument arrays. -/
theorem run_post : θ_run defs (onTc (τ := τ) (main (F := F))) ⟨m, fun _ => 0, ρ⟩ (fun r => ∀ c : Dev nD,
      r.2.mem ((c.tc : Thread nD τ).loc main_v4) = (dat1 (Vr3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v4 (by decide))).trans (W4_main_v4 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_post m ρ)

end Cert.KernelIdeal.Fr

end
-- ==== Proof.MlpSpec.lean ====
import Idealize.ShloMosaic.PureOps.Ideal
import Idealize.ShloMosaic.Lib.ValueIdx

/-!
# The gated projection, element by element

Over the extended reals, with each integer weight read as its signed integer:

* `gateAt x w s t o = (∑ k < 4096, x(t,k) · w(o,k)) · s(o)` — one scaled row-by-row product;
* `hAt … t o = (g · logistic g) · u` with `g` the gate product and `u` the up product at `(t, o)`;
* `outAt … t j = (∑ o < 11008, h(t,o) · w_down(j,o)) · s_down(j)`;

and `Gout` is `outAt` read at a rank-2 index. Below them, the ways a long sum is cut into
consecutive blocks: a sum over 4096 terms as two halves of 2048, a sum over 11008 terms as 43
blocks of 256, and the running sums of the blocks (zero before the first block, one more block at
each step, the whole sum after the last). The extended reals are an additive commutative monoid,
so none of this needs finiteness.
-/

noncomputable section

namespace Cert.Mlp.Spec

open Idealize.ShloMosaic Idealize.ShloMosaic.ValueIdx
open scoped BigOperators

/-! ## The function -/

/-- A scaled product of row `t` of `x` with row `o` of the integer matrix `w`: `(∑ₖ x(t,k)·w(o,k))·s(o)`. -/
def gateAt (x : (⟨2, ![2048, 4096]⟩ : Shape).Idx → EReal) (w : (⟨2, ![11008, 4096]⟩ : Shape).Idx → BitVec 32)
    (s : (⟨1, ![11008]⟩ : Shape).Idx → EReal) (t : Fin 2048) (o : Fin 11008) : EReal :=
  (∑ k : Fin 4096, x (ix2 t k) * (((w (ix2 o k)).toInt : ℝ) : EReal)) * s (ix1 o)

/-- The gated hidden value at `(t, o)`: `(g · logistic g) · u`. -/
def hAt (x : (⟨2, ![2048, 4096]⟩ : Shape).Idx → EReal) (wg wu : (⟨2, ![11008, 4096]⟩ : Shape).Idx → BitVec 32)
    (sg su : (⟨1, ![11008]⟩ : Shape).Idx → EReal) (t : Fin 2048) (o : Fin 11008) : EReal :=
  (gateAt x wg sg t o * Ideal.logistic (gateAt x wg sg t o)) * gateAt x wu su t o

/-- The result at `(t, j)`: `(∑ₒ h(t,o)·w_down(j,o))·s_down(j)`. -/
def outAt (x : (⟨2, ![2048, 4096]⟩ : Shape).Idx → EReal) (wg wu : (⟨2, ![11008, 4096]⟩ : Shape).Idx → BitVec 32)
    (wd : (⟨2, ![4096, 11008]⟩ : Shape).Idx → BitVec 32) (sg su : (⟨1, ![11008]⟩ : Shape).Idx → EReal)
    (sd : (⟨1, ![4096]⟩ : Shape).Idx → EReal) (t : Fin 2048) (j : Fin 4096) : EReal :=
  (∑ o : Fin 11008, hAt x wg wu sg su t o * (((wd (ix2 j o)).toInt : ℝ) : EReal)) * sd (ix1 j)

/-- The whole result as one function of the seven argument arrays. -/
def Gout (x : (⟨2, ![2048, 4096]⟩ : Shape).Idx → EReal) (wg wu : (⟨2, ![11008, 4096]⟩ : Shape).Idx → BitVec 32)
    (wd : (⟨2, ![4096, 11008]⟩ : Shape).Idx → BitVec 32) (sg su : (⟨1, ![11008]⟩ : Shape).Idx → EReal)
    (sd : (⟨1, ![4096]⟩ : Shape).Idx → EReal) (i : (⟨2, ![2048, 4096]⟩ : Shape).Idx) : EReal :=
  outAt x wg wu wd sg su sd (i 0 : Fin 2048) (i 1 : Fin 4096)

/-- `Gout` at an index given by its coordinates. -/
theorem Gout_ix2 (x : (⟨2, ![2048, 4096]⟩ : Shape).Idx → EReal) (wg wu : (⟨2, ![11008, 4096]⟩ : Shape).Idx → BitVec 32)
    (wd : (⟨2, ![4096, 11008]⟩ : Shape).Idx → BitVec 32) (sg su : (⟨1, ![11008]⟩ : Shape).Idx → EReal)
    (sd : (⟨1, ![4096]⟩ : Shape).Idx → EReal) (t : Fin 2048) (j : Fin 4096) :
    Gout x wg wu wd sg su sd (ix2 t j) = outAt x wg wu wd sg su sd t j := rfl

/-! ## A sum cut into consecutive blocks -/

/-- A sum over `nb · bs` terms is the sum over the `nb` blocks of each block's `bs` terms. -/
theorem sum_blocks {M : Type*} [AddCommMonoid M] (nb bs : ℕ) (f : Fin (nb * bs) → M) :
    ∑ i, f i = ∑ b : Fin nb, ∑ k : Fin bs,
      f ⟨b.val * bs + k.val, by
        have hb := b.isLt; have hk := k.isLt
        calc b.val * bs + k.val < b.val * bs + bs := Nat.add_lt_add_left hk _
          _ = (b.val + 1) * bs := (Nat.succ_mul _ _).symm
          _ ≤ nb * bs := Nat.mul_le_mul_right _ hb⟩ := by
  rw [← Equiv.sum_comp finProdFinEquiv f, Fintype.sum_prod_type]
  refine Finset.sum_congr rfl fun b _ => Finset.sum_congr rfl fun k _ => congrArg f (Fin.ext ?_)
  show k.val + bs * b.val = b.val * bs + k.val
  rw [Nat.mul_comm, Nat.add_comm]

/-- The running sum of the first `b` of `n` terms. -/
def partialSum {n : ℕ} (g : Fin n → EReal) (b : ℕ) : EReal :=
  ∑ c ∈ Finset.range b, if h : c < n then g ⟨c, h⟩ else 0

/-- Before the first term the running sum is zero. -/
theorem partialSum_zero {n : ℕ} (g : Fin n → EReal) : partialSum g 0 = 0 := Finset.sum_range_zero _

/-- One more term. -/
theorem partialSum_succ {n : ℕ} (g : Fin n → EReal) (b : ℕ) (h : b < n) :
    partialSum g (b + 1) = partialSum g b + g ⟨b, h⟩ := by
  unfold partialSum
  rw [Finset.sum_range_succ, dif_pos h]

/-- After the last term the running sum is the whole sum. -/
theorem partialSum_all {n : ℕ} (g : Fin n → EReal) : partialSum g n = ∑ c, g c := by
  unfold partialSum
  rw [Finset.sum_range]
  exact Finset.sum_congr rfl fun c _ => by rw [dif_pos c.isLt]

/-! ### 4096 terms as two blocks of 2048 -/

/-- Block `b` (of two) of a sum over 4096 terms. -/
def blockSum2048 (f : Fin 4096 → EReal) (b : Fin 2) : EReal :=
  ∑ k : Fin 2048, f ⟨b.val * 2048 + k.val, by have := b.isLt; have := k.isLt; omega⟩

/-- A sum over 4096 terms is its first half plus its second half. -/
theorem sum_4096_halves (f : Fin 4096 → EReal) :
    ∑ k, f k = (∑ k : Fin 2048, f ⟨k.val, by have := k.isLt; omega⟩)
      + ∑ k : Fin 2048, f ⟨2048 + k.val, by have := k.isLt; omega⟩ :=
  Fin.sum_univ_add (M := EReal) (a := 2048) (b := 2048) f

/-- A sum over 4096 terms is the sum of its two blocks. -/
theorem sum_4096_blocks (f : Fin 4096 → EReal) : ∑ k, f k = ∑ b : Fin 2, blockSum2048 f b :=
  sum_blocks 2 2048 f

/-- The running sum of the blocks of 2048. -/
def partial2048 (f : Fin 4096 → EReal) (b : ℕ) : EReal := partialSum (blockSum2048 f) b

theorem partial2048_zero (f : Fin 4096 → EReal) : partial2048 f 0 = 0 := partialSum_zero _
theorem partial2048_succ (f : Fin 4096 → EReal) (b : ℕ) (h : b < 2) :
    partial2048 f (b + 1) = partial2048 f b + blockSum2048 f ⟨b, h⟩ := partialSum_succ _ b h
theorem partial2048_all (f : Fin 4096 → EReal) : partial2048 f 2 = ∑ k, f k :=
  (partialSum_all _).trans (sum_4096_blocks f).symm

/-! ### 11008 terms as 43 blocks of 256 -/

/-- Block `b` (of 43) of a sum over 11008 terms. -/
def blockSum256 (f : Fin 11008 → EReal) (b : Fin 43) : EReal :=
  ∑ k : Fin 256, f ⟨b.val * 256 + k.val, by have := b.isLt; have := k.isLt; omega⟩

/-- A sum over 11008 terms is the sum of its 43 blocks of 256. -/
theorem sum_11008_blocks (f : Fin 11008 → EReal) : ∑ o, f o = ∑ b : Fin 43, blockSum256 f b :=
  sum_blocks 43 256 f

/-- The running sum of the blocks of 256. -/
def partial256 (f : Fin 11008 → EReal) (b : ℕ) : EReal := partialSum (blockSum256 f) b

theorem partial256_zero (f : Fin 11008 → EReal) : partial256 f 0 = 0 := partialSum_zero _
theorem partial256_succ (f : Fin 11008 → EReal) (b : ℕ) (h : b < 43) :
    partial256 f (b + 1) = partial256 f b + blockSum256 f ⟨b, h⟩ := partialSum_succ _ b h
theorem partial256_all (f : Fin 11008 → EReal) : partial256 f 43 = ∑ o, f o :=
  (partialSum_all _).trans (sum_11008_blocks f).symm

end Cert.Mlp.Spec

end
-- ==== Proof.MlpBlock.lean ====
/-
  The two stages of the gated projection as whole-array functions, in the form the two kernel regions produce them.

  The first region leaves the gated product H[t, o] = silu(gate[t, o]) · up[t, o], with the per-channel scales read from
  ROW vectors of shape [1, 11008] (the scale vectors reshaped); the second leaves out[t, j] = (Σ_o H[t, o] · w_down[j, o])
  · s_down[0, j] with the scale again a row vector. Composed, and with the row vectors read back as the vectors they were
  reshaped from, they are the specification's result.
-/
import proofs.«176034_j64441689309584_1_alg».proof.Proof.MlpSpec

noncomputable section

namespace Cert.Mlp.Spec

open Idealize.ShloMosaic Idealize.ShloMosaic.ValueIdx

/-- A row vector [1, n] read as the vector [n]. -/
def row {n : ℕ} (s2 : (⟨2, ![1, n]⟩ : Shape).Idx → EReal) : (⟨1, ![n]⟩ : Shape).Idx → EReal :=
  fun o => s2 (ix2 (0 : Fin 1) (o 0))

/-- What the first region leaves: the gated product, the scales given as row vectors. -/
def Hspec (x : (⟨2, ![2048, 4096]⟩ : Shape).Idx → EReal) (wg wu : (⟨2, ![11008, 4096]⟩ : Shape).Idx → BitVec 32)
    (sg2 su2 : (⟨2, ![1, 11008]⟩ : Shape).Idx → EReal) (i : (⟨2, ![2048, 11008]⟩ : Shape).Idx) : EReal :=
  hAt x wg wu (row sg2) (row su2) (i 0 : Fin 2048) (i 1 : Fin 11008)

/-- What the second region leaves from an intermediate array `h`: its product with the down weights, scaled per column. -/
def Ospec (h : (⟨2, ![2048, 11008]⟩ : Shape).Idx → EReal) (wd : (⟨2, ![4096, 11008]⟩ : Shape).Idx → BitVec 32)
    (sd2 : (⟨2, ![1, 4096]⟩ : Shape).Idx → EReal) (i : (⟨2, ![2048, 4096]⟩ : Shape).Idx) : EReal :=
  (∑ o : Fin 11008, h (ix2 (i 0 : Fin 2048) o) * (((wd (ix2 (i 1 : Fin 4096) o)).toInt : ℝ) : EReal)) * sd2 (ix2 (0 : Fin 1) (i 1 : Fin 4096))

theorem Hspec_ix2 (x wg wu sg2 su2) (t : Fin 2048) (o : Fin 11008) :
    Hspec x wg wu sg2 su2 (ix2 t o) = hAt x wg wu (row sg2) (row su2) t o := rfl
theorem Ospec_ix2 (h wd sd2) (t : Fin 2048) (j : Fin 4096) :
    Ospec h wd sd2 (ix2 t j) = (∑ o : Fin 11008, h (ix2 t o) * (((wd (ix2 j o)).toInt : ℝ) : EReal)) * sd2 (ix2 (0 : Fin 1) j) := rfl
theorem row_ix1 {n : ℕ} (s2 : (⟨2, ![1, n]⟩ : Shape).Idx → EReal) (o : Fin n) : row s2 (ix1 o) = s2 (ix2 (0 : Fin 1) o) := rfl

/-- The two stages composed are the specification's result, the row vectors read as vectors. -/
theorem Ospec_Hspec (x wg wu wd sg2 su2 sd2) :
    Ospec (Hspec x wg wu sg2 su2) wd sd2 = Gout x wg wu wd (row sg2) (row su2) (row sd2) := by
  funext i
  obtain ⟨t, j, rfl⟩ : ∃ (t : Fin 2048) (j : Fin 4096), i = ix2 t j := ⟨i 0, i 1, eq_ix2 i⟩
  rw [Ospec_ix2, Gout_ix2]
  unfold outAt
  simp only [Hspec_ix2, row_ix1]

end Cert.Mlp.Spec

end
-- ==== Proof.KI.Host.lean ====
/-
  The host stretches' part of the run, at the ideal instance: each of the three reshapes turns a scale vector [n] into
  the row [1, n] holding the same numbers, so the row read back as a vector is the vector; and the buffers the regions'
  windows stage, followed back through the items of @main to the launch memory.
-/
import proofs.«176034_j64441689309584_1_alg».proof.Proof.KI.Main
import proofs.«176034_j64441689309584_1_alg».proof.Proof.MlpBlock
import Idealize.ShloMosaic.Lib.StableHlo.Run
import Idealize.ShloMosaic.Lib.Pipeline.Value

set_option maxRecDepth 16384

noncomputable section

namespace Cert.KernelIdeal.FrV

open Cert.KernelIdeal Cert.KernelIdeal.Gen Cert.KernelIdeal.Fr
open Idealize.ShloMosaic Idealize.ShloMosaic.TcCoe Idealize.ShloMosaic.ValueIdx
open Idealize.ShloMosaic.Pipeline (Dat)
open Cert.Mlp

variable (m : (ℓ : Loc nD τ sig) → Buf (Elt Ideal) ℓ)

/-- A vector reshaped to a row and read back as a vector is itself. -/
theorem row_cast {n : ℕ} (s : (⟨1, ![n]⟩ : Shape).Idx → EReal) (h : (⟨1, ![n]⟩ : Shape).ShapeCasts ⟨2, ![1, n]⟩) :
    Spec.row (shapeCast (⟨2, ![1, n]⟩ : Shape) s h) = s := by
  funext o
  unfold Spec.row
  refine (shapeCast_addUnit_apply ![n] s h _).trans (congrArg s ?_)
  funext a
  match a with
  | ⟨0, _⟩ => rfl

/-- The gate scale row as region 0 finds it: the first reshape's result. -/
theorem V1_v0 (c : Dev nD) :
    (V1 m c main_v0 : S1x11008.Idx → EReal) = shapeCast S1x11008 (m ((c : Thread nD τ).loc main_arg4)) shapeCasts_S11008_S1x11008 := by
  dsimp only [V1, V0, hostOps0]; after_results; rfl
/-- The up scale row as region 0 finds it: the second reshape's result. -/
theorem V1_v1 (c : Dev nD) :
    (V1 m c main_v1 : S1x11008.Idx → EReal) = shapeCast S1x11008 (m ((c : Thread nD τ).loc main_arg5)) shapeCasts_S11008_S1x11008 := by
  dsimp only [V1, V0, hostOps0]; after_results; rfl
/-- The down scale row as region 1 finds it: the third reshape's result, of the vector as region 0 left it. -/
theorem W3_v3 (c : Dev nD) :
    (W3 m c main_v3 : S1x4096.Idx → EReal) = shapeCast S1x4096 (W2 m c main_arg6 : S4096.Idx → EReal) shapeCasts_S4096_S1x4096 := by
  unfold W3; dsimp only [hostOps1]; after_results; rfl

/-- The argument arrays as the regions find them are the launch memory's. -/
theorem V1_arg0 (c : Dev nD) : V1 m c main_arg0 = m ((c : Thread nD τ).loc main_arg0) := V1_of m c main_arg0 (by decide)
theorem V1_arg1 (c : Dev nD) : V1 m c main_arg1 = m ((c : Thread nD τ).loc main_arg1) := V1_of m c main_arg1 (by decide)
theorem V1_arg2 (c : Dev nD) : V1 m c main_arg2 = m ((c : Thread nD τ).loc main_arg2) := V1_of m c main_arg2 (by decide)
theorem W2_arg6 (c : Dev nD) : W2 m c main_arg6 = m ((c : Thread nD τ).loc main_arg6) :=
  (W2_of_ne m c main_arg6 (by decide)).trans (V1_of m c main_arg6 (by decide))
theorem W3_arg3 (c : Dev nD) : W3 m c main_arg3 = m ((c : Thread nD τ).loc main_arg3) :=
  (W3_of m c main_arg3 (by decide)).trans ((W2_of_ne m c main_arg3 (by decide)).trans (V1_of m c main_arg3 (by decide)))
/-- The intermediate array as region 1 finds it is what region 0's write-backs left. -/
theorem W3_v2 (c : Dev nD) : W3 m c main_v2 = (dat0 (Vr1 m) c).arrAt 5 cfg0.N :=
  (W3_of m c main_v2 (by decide)).trans (W2_arr m c 5)

end Cert.KernelIdeal.FrV

end
-- ==== Proof.LibReadCov.lean ====
/-
  A read-back of a whole buffer after a store of the whole buffer.

  A buffer is written by a list of stores, the last store first.  When the last store wrote the WHOLE buffer (a
  unit-stride rectangle at zero offsets of the buffer's own sizes), a load of the whole buffer afterwards reads that
  store's payload, whatever the earlier stores left: the last store covers every index.  This is the form met by an
  accumulator kept in a scratch buffer that is stored whole, read back whole, updated and stored whole again, any
  number of times.
-/
import Idealize.ShloMosaic.Lib.Pipeline.Value

noncomputable section

open Idealize.ShloMosaic

namespace Cert.LibReadCov

/-- After the stores `⟨whole, w⟩ :: L` (the whole-buffer store of `w` last, over any earlier stores `L`), a load of
    the whole buffer reads `w`.  The zero offsets may be spelt in any way (`h`). -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Cert.LibReadCov

end
-- ==== Proof.KI.R0Piece.lean ====
/-
  What each case of the gate/up body leaves, as the payloads of the blocks it was given.

  At a point of the first contraction block each accumulator ends holding one accumulation step over the zero splat;
  at a point of the last contraction block each accumulator ends holding one accumulation step over what it held on
  entry, and the output block is the gated product of those two new accumulator values with the two scale rows. Each
  buffer is stored whole, so what it holds afterwards is the last store's payload, and a whole load after a whole store
  reads that payload.
-/
import proofs.«176034_j64441689309584_1_alg».proof.Proof.KI.R0Frame
import proofs.«176034_j64441689309584_1_alg».proof.Proof.LibReadCov

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 access, as the constant function. -/
theorem hz2 : (![0, 0] : Fin 2 → Nat) = fun _ => 0 := funext fun a => by
  match a with
  | ⟨0, _⟩ => rfl
  | ⟨1, _⟩ => rfl

/-! ## A point of the first contraction block -/

/-- The gate accumulator: zeroed, then the block's product added. -/
theorem sout0_A_0_eq (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x2048 .f32) (x1 : Vec F S256x2048 .i32) (x2 : Vec F S256x2048 .i32) (x3 : Vec F S1x256 .f32) (x4 : Vec F S1x256 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  rw [View.canon_cons_unit_zero hz2]
  sl_unfold_words
  rw [View.readCov_unit_zero _ hz2]
  simp only [View.readAt_eq_ld, harg3.read_unread, harg4.read_unread, View.ld_unit_zero (S := S512x2048) hz2, View.ld_unit_zero (S := S256x2048) hz2]

/-- The up accumulator: zeroed, then the block's product added. -/
theorem sout0_A_1_eq (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x2048 .f32) (x1 : Vec F S256x2048 .i32) (x2 : Vec F S256x2048 .i32) (x3 : Vec F S1x256 .f32) (x4 : Vec F S1x256 .f32) :
    sout0_A_1 c i arg3 harg3 arg4 harg4 arg5 harg5 arg6 harg6 arg7 harg7 arg8 harg8 arg9 harg9 arg10 harg10 hc0 hc1 x0 x1 x2 x3 x4 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  rw [View.canon_cons_unit_zero hz2]
  sl_unfold_words
  rw [View.readCov_unit_zero _ hz2]
  simp only [View.readAt_eq_ld, harg3.read_unread, harg5.read_unread, View.ld_unit_zero (S := S512x2048) hz2, View.ld_unit_zero (S := S256x2048) hz2]

/-! ## A point of the last contraction block -/

/-- The gate accumulator: the block's product added to what it held on entry. -/
theorem sout0_B_0_eq (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz2]
  simp only [View.readAt_eq_ld, harg3.read_unread, harg4.read_unread, harg9.read_unread, View.ld_unit_zero (S := S512x2048) hz2, View.ld_unit_zero (S := S256x2048) hz2, View.ld_unit_zero (S := S512x256) hz2]

/-- The up accumulator: the block's product added to what it held on entry. -/
theorem sout0_B_1_eq (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz2]
  simp only [View.readAt_eq_ld, harg3.read_unread, harg5.read_unread, harg10.read_unread, View.ld_unit_zero (S := S512x2048) hz2, View.ld_unit_zero (S := S256x2048) hz2, View.ld_unit_zero (S := S512x256) hz2]

/-- The output block: the gated product of the two new accumulator values and the two scale rows. -/
theorem out0_B_5_eq (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x2048 .i32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .bf16) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x2048 .f32) (x1 : Vec F S256x2048 .i32) (x2 : Vec F S256x2048 .i32) (x3 : Vec F S1x256 .f32) (x4 : Vec F S1x256 .f32) (xs0 : Vec F S512x256 .f32) (xs1 : Vec F S512x256 .f32) :
    out0_B_5 c i arg3 harg3 arg4 harg4 arg5 harg5 arg6 harg6 arg7 harg7 arg8 harg8 arg9 harg9 arg10 harg10 hc0 hc1 x0 x1 x2 x3 x4 xs0 xs1 = k0_pay6 (k0_pay4 x0 x1 xs0) x3 (k0_pay5 x0 x2 xs1) x4 := by
  unfold out0_B_5
  rw [View.read_writes_eq_canon _ _ _ (cover0_B_5 c i arg3 harg3 arg4 harg4 arg5 harg5 arg6 harg6 arg7 harg7 arg8 harg8 arg9 harg9 arg10 harg10 hc0 hc1 x0 x1 x2 x3 x4 xs0 xs1)]
  unfold kernelRun0_B
  dsimp only
  rw [View.canon_unit_zero hz2]
  sl_unfold_words
  rw [View.readCov_unit_zero _ hz2, View.readCov_unit_zero _ hz2]
  simp only [View.readAt_eq_ld, harg3.read_unread, harg4.read_unread, harg5.read_unread, harg6.read_unread, harg7.read_unread, harg9.read_unread, harg10.read_unread, View.ld_unit_zero (S := S512x2048) hz2, View.ld_unit_zero (S := S256x2048) hz2, View.ld_unit_zero (S := S512x256) hz2, View.ld_unit_zero (S := S1x256) hz2]

end Cert.KernelIdeal.Fr

end
-- ==== Proof.MlpPay0.lean ====
import proofs.«176034_j64441689309584_1_alg».proof.Proof.Gen.KernelIdeal.Skeleton
import Idealize.ShloMosaic.Lib.ValueIdx
import Idealize.ShloMosaic.Lib.ValueLayout
import Idealize.ShloMosaic.PureOps.Ideal.Laws

/-!
# The first call's payloads, read at one element

Each value the gate/up body stores is read here at an index `(p, q)` of its block, over the
extended reals: the two zero splats are `0`; one accumulation step adds to the stored partial
sum the dot product of row `p` of the activation block with row `q` of the integer weight block
(each weight read as its signed integer); the last step scales both accumulators by their
per-column scales and forms `(g · logistic g) · u`.
-/

noncomputable section

namespace Cert.Mlp.Pay0

open Cert.KernelIdeal Cert.KernelIdeal.Gen Idealize.ShloMosaic Idealize.ShloMosaic.ValueIdx
open scoped BigOperators

/-! ## The contraction's operand indices -/

/-- The left operand's row is the output's row. -/
theorem lhs_0 (i : S512x256.Idx) (c : dot_S512x2048_S256x2048_S512x256_1_1_0_0_n_n.contr.Idx) :
    (dot_S512x2048_S256x2048_S512x256_1_1_0_0_n_n.lhsIdx i c 0).val = (i 0).val := by
  unfold DotDims.lhsIdx
  rw [dif_neg (show ¬(0 : Fin S512x2048.rank) ∈ dot_S512x2048_S256x2048_S512x256_1_1_0_0_n_n.lhsBatch by decide),
    dif_pos (show (0 : Fin S512x2048.rank) ∈ dot_S512x2048_S256x2048_S512x256_1_1_0_0_n_n.lhsNonContracting by decide)]
  rfl
/-- The left operand's column is the contraction coordinate. -/
theorem lhs_1 (i : S512x256.Idx) (c : dot_S512x2048_S256x2048_S512x256_1_1_0_0_n_n.contr.Idx) :
    (dot_S512x2048_S256x2048_S512x256_1_1_0_0_n_n.lhsIdx i c 1).val = (c ⟨0, by decide⟩).val :=
  dot_S512x2048_S256x2048_S512x256_1_1_0_0_n_n.lhsIdx_val_of_single rfl i c
/-- The right operand's row is the output's column. -/
theorem rhs_0 (i : S512x256.Idx) (c : dot_S512x2048_S256x2048_S512x256_1_1_0_0_n_n.contr.Idx) :
    (dot_S512x2048_S256x2048_S512x256_1_1_0_0_n_n.rhsIdx i c 0).val = (i 1).val := by
  unfold DotDims.rhsIdx
  rw [dif_neg (show ¬(0 : Fin S256x2048.rank) ∈ dot_S512x2048_S256x2048_S512x256_1_1_0_0_n_n.rhsBatch by decide),
    dif_pos (show (0 : Fin S256x2048.rank) ∈ dot_S512x2048_S256x2048_S512x256_1_1_0_0_n_n.rhsNonContracting by decide)]
  rfl
/-- The right operand's column is the contraction coordinate. -/
theorem rhs_1 (i : S512x256.Idx) (c : dot_S512x2048_S256x2048_S512x256_1_1_0_0_n_n.contr.Idx) :
    (dot_S512x2048_S256x2048_S512x256_1_1_0_0_n_n.rhsIdx i c 1).val = (c ⟨0, by decide⟩).val :=
  dot_S512x2048_S256x2048_S512x256_1_1_0_0_n_n.rhsIdx_val_of_single rfl i c

/-- The product into the zero splat, at `(p, q)`: the sum over the 2048 contraction coordinates of
    the left operand's row `p` times the right operand's row `q`. -/
theorem matmul_zero_apply (a : FVec Ideal S512x2048 .bf16) (b : FVec Ideal S256x2048 .bf16) (p : Fin 512) (q : Fin 256) :
    matmul dot_S512x2048_S256x2048_S512x256_1_1_0_0_n_n none a b (constant S512x256 .f32 0x00000000#32) (ix2 p q)
      = ∑ k : Fin 2048, a (ix2 p k) * b (ix2 q k) := by
  refine (Ideal.matmul_constant_zero_apply dot_S512x2048_S256x2048_S512x256_1_1_0_0_n_n none a b (ix2 p q)).trans ?_
  rw [← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 p q)
      ((contrEquiv1 dot_S512x2048_S256x2048_S512x256_1_1_0_0_n_n 2048 rfl rfl).symm k) = ix2 p k :=
    funext fun ax => Fin.ext (by
      match ax with
      | ⟨0, _⟩ => exact lhs_0 _ _
      | ⟨1, _⟩ => exact (lhs_1 _ _).trans hk)
  have er : dot_S512x2048_S256x2048_S512x256_1_1_0_0_n_n.rhsIdx (ix2 p q)
      ((contrEquiv1 dot_S512x2048_S256x2048_S512x256_1_1_0_0_n_n 2048 rfl rfl).symm k) = ix2 q k :=
    funext fun ax => Fin.ext (by
      match ax with
      | ⟨0, _⟩ => exact rhs_0 _ _
      | ⟨1, _⟩ => exact (rhs_1 _ _).trans hk)
  rw [el, er]

/-! ## The payloads -/

/-- The first accumulator's initial value is zero everywhere. -/
theorem pay1_apply (p : Fin 512) (q : Fin 256) : k0_pay1 (F := Ideal) (ix2 p q) = 0 := by
  unfold k0_pay1
  rw [shapeCast_self]
  exact Ideal.ofBits_zero_f32

/-- The second accumulator's initial value is zero everywhere. -/
theorem pay2_apply (p : Fin 512) (q : Fin 256) : k0_pay2 (F := Ideal) (ix2 p q) = 0 := by
  unfold k0_pay2
  rw [shapeCast_self]
  exact Ideal.ofBits_zero_f32

/-- One accumulation step of the gate product: the stored partial sum plus this block's dot product. -/
theorem pay4_apply (v3 : Vec Ideal S512x2048 .f32) (v5 : Vec Ideal S256x2048 .i32) (v9 : Vec Ideal S512x256 .f32)
    (p : Fin 512) (q : Fin 256) :
    k0_pay4 v3 v5 v9 (ix2 p q) = v9 (ix2 p q) + ∑ k : Fin 2048, v3 (ix2 p k) * (((v5 (ix2 q k)).toInt : ℝ) : EReal) := by
  unfold k0_pay4 k0_pay3
  rw [shapeCast_self]
  refine congrArg (v9 (ix2 p q) + ·) ?_
  exact matmul_zero_apply _ _ p q

/-- One accumulation step of the up product: the stored partial sum plus this block's dot product. -/
theorem pay5_apply (v3 : Vec Ideal S512x2048 .f32) (v7 : Vec Ideal S256x2048 .i32) (v15 : Vec Ideal S512x256 .f32)
    (p : Fin 512) (q : Fin 256) :
    k0_pay5 v3 v7 v15 (ix2 p q) = v15 (ix2 p q) + ∑ k : Fin 2048, v3 (ix2 p k) * (((v7 (ix2 q k)).toInt : ℝ) : EReal) := by
  unfold k0_pay5 k0_pay3
  rw [shapeCast_self]
  refine congrArg (v15 (ix2 p q) + ·) ?_
  exact matmul_zero_apply _ _ p q

/-- The last step: both accumulators scaled by their column's scale, then `(g · logistic g) · u`. -/
theorem pay6_apply (v24 : Vec Ideal S512x256 .f32) (v25 : Vec Ideal S1x256 .f32) (v29 : Vec Ideal S512x256 .f32)
    (v30 : Vec Ideal S1x256 .f32) (p : Fin 512) (q : Fin 256) :
    k0_pay6 v24 v25 v29 v30 (ix2 p q)
      = (let g := v24 (ix2 p q) * v25 (ix2 (0 : Fin 1) q); (g * Ideal.logistic g) * (v29 (ix2 p q) * v30 (ix2 (0 : Fin 1) q))) := by
  unfold k0_pay6
  rw [shapeCast_self, shapeCast_self]
  show (v24 (ix2 p q) * broadcastTo S512x256 v25 broadcasts_S1x256_S512x256 (ix2 p q)
      * Ideal.logistic (v24 (ix2 p q) * broadcastTo S512x256 v25 broadcasts_S1x256_S512x256 (ix2 p q)))
      * (v29 (ix2 p q) * broadcastTo S512x256 v30 broadcasts_S1x256_S512x256 (ix2 p q)) = _
  rw [broadcastTo_1b_ab_apply v25, broadcastTo_1b_ab_apply v30]

end Cert.Mlp.Pay0

end
-- ==== Proof.MlpAcc.lean ====
import proofs.«176034_j64441689309584_1_alg».proof.Proof.MlpSpec

/-!
# The accumulations end at the whole sums

The first contraction is accumulated from zero over its two blocks of 2048 and the second from
zero over its 43 blocks of 256; here the accumulated values are the whole sums. The extended
reals are an additive commutative monoid, so this holds of every summand, finite or not.
-/

noncomputable section

namespace Cert.Mlp.Acc

open Cert.Mlp.Spec
open scoped BigOperators

/-- Zero, plus the first block of 2048, plus the second, is the sum over all 4096 terms. -/
theorem acc2048 (f : Fin 4096 → EReal) :
    (0 + blockSum2048 f 0) + blockSum2048 f 1 = ∑ k, f k := by
  rw [zero_add, sum_4096_blocks f, Fin.sum_univ_two]

/-- The running sum over blocks of 2048 after both blocks, spelt from zero. -/
theorem partial2048_two (f : Fin 4096 → EReal) :
    partial2048 f 2 = (0 + blockSum2048 f 0) + blockSum2048 f 1 :=
  (partial2048_all f).trans (acc2048 f).symm

/-- A block of 2048 with its summand's index written out. -/
theorem blockSum2048_zero (f : Fin 4096 → EReal) :
    blockSum2048 f 0 = ∑ k : Fin 2048, f ⟨k.val, by have := k.isLt; omega⟩ :=
  Finset.sum_congr rfl fun k _ => congrArg f (Fin.ext (by show 0 * 2048 + k.val = k.val; omega))

/-- The second block of 2048 with its summand's index written out. -/
theorem blockSum2048_one (f : Fin 4096 → EReal) :
    blockSum2048 f 1 = ∑ k : Fin 2048, f ⟨2048 + k.val, by have := k.isLt; omega⟩ :=
  Finset.sum_congr rfl fun k _ => congrArg f (Fin.ext (by show 1 * 2048 + k.val = 2048 + k.val; omega))

/-- The running sum over blocks of 256 at a step `b ≤ 43`, as the sum of the blocks before `b`. -/
theorem partial256_eq_sum (f : Fin 11008 → EReal) (b : ℕ) (hb : b ≤ 43) :
    partial256 f b = ∑ c : Fin b, blockSum256 f ⟨c.val, Nat.lt_of_lt_of_le c.isLt hb⟩ := by
  unfold partial256 partialSum
  rw [Finset.sum_range]
  exact Finset.sum_congr rfl fun c _ => by rw [dif_pos (Nat.lt_of_lt_of_le c.isLt hb)]

end Cert.Mlp.Acc

end
-- ==== Proof.KI.R0Value.lean ====
/-
  Region 0's stored output block, element by element, over the extended reals.

  At an odd grid point the body stores the gated product of the two accumulators; each accumulator was zeroed at the
  even point before, took that point's block product and then this point's. Read at an element `(p, q)`, the stored
  value is `(g · logistic g) · u` with `g` and `u` the two half sums joined and scaled by column `q`'s scales.
-/
import proofs.«176034_j64441689309584_1_alg».proof.Proof.KI.R0Piece
import proofs.«176034_j64441689309584_1_alg».proof.Proof.MlpPay0
import proofs.«176034_j64441689309584_1_alg».proof.Proof.MlpSpec
import proofs.«176034_j64441689309584_1_alg».proof.Proof.MlpAcc

set_option maxRecDepth 16384

noncomputable section

namespace Cert.KernelIdeal.FrV

open Cert.KernelIdeal Cert.KernelIdeal.Gen Cert.KernelIdeal.Fr
open Idealize.ShloMosaic Idealize.ShloMosaic.TcCoe Idealize.ShloMosaic.ValueIdx
open Idealize.SL.Sem
open scoped BigOperators

/-- The point before `t`. -/
def prev (t : Fin cfg0.N) : Fin cfg0.N := ⟨t.val - 1, Nat.lt_of_le_of_lt (Nat.sub_le _ _) t.isLt⟩

theorem prev_even (t : Fin cfg0.N) (h1 : t.val % 2 = 1) : (prev t).val % 2 = 0 := by
  show (t.val - 1) % 2 = 0
  omega

section Generic
variable {F : FTy → Type} [FloatOps F]
variable (V : (c : Dev nD) → (b : Ref sig .tc) → Buf (Elt F) ((c : Thread nD τ).loc b))

/-! ## The five input blocks at a point, at their literal vector types -/

abbrev xB (c : Dev nD) (t : Fin cfg0.N) : Vec F S512x2048 .f32 := iblk0 V c 0 t
abbrev gB (c : Dev nD) (t : Fin cfg0.N) : Vec F S256x2048 .i32 := iblk0 V c 1 t
abbrev uB (c : Dev nD) (t : Fin cfg0.N) : Vec F S256x2048 .i32 := iblk0 V c 2 t
abbrev sgB (c : Dev nD) (t : Fin cfg0.N) : Vec F S1x256 .f32 := iblk0 V c 3 t
abbrev suB (c : Dev nD) (t : Fin cfg0.N) : Vec F S1x256 .f32 := iblk0 V c 4 t

/-! ## What each case leaves, as payloads of the blocks -/

theorem caseA0_acc0 (c : Dev nD) (t : Fin cfg0.N) (h0 : t.val % 2 = 0) :
    (caseA0 V c t h0).2.1 = k0_pay4 (xB V c t) (gB V c t) (k0_pay1 (F := F)) := by
  unfold caseA0
  dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hA0 t h0).1 (hA0 t h0).2 (iblk0 V c 0 t) (iblk0 V c 1 t) (iblk0 V c 2 t) (iblk0 V c 3 t) (iblk0 V c 4 t)

theorem caseA0_acc1 (c : Dev nD) (t : Fin cfg0.N) (h0 : t.val % 2 = 0) :
    (caseA0 V c t h0).2.2 = k0_pay5 (xB V c t) (uB V c t) (k0_pay2 (F := F)) := by
  unfold caseA0
  dsimp only
  exact sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hA0 t h0).1 (hA0 t h0).2 (iblk0 V c 0 t) (iblk0 V c 1 t) (iblk0 V c 2 t) (iblk0 V c 3 t) (iblk0 V c 4 t)

theorem caseB0_out (c : Dev nD) (t : Fin cfg0.N) (h1 : t.val % 2 = 1) (p0 p1 : Vec F S512x256 .f32) :
    (caseB0 V c t h1 p0 p1).1
      = k0_pay6 (k0_pay4 (xB V c t) (gB V c t) p0) (sgB V c t) (k0_pay5 (xB V c t) (uB V c t) p1) (suB V c t) := by
  unfold caseB0
  dsimp only
  exact out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hB0 t h1).1 (hB0 t h1).2 (iblk0 V c 0 t) (iblk0 V c 1 t) (iblk0 V c 2 t) (iblk0 V c 3 t) (iblk0 V c 4 t) p0 p1

/-- At an odd point the stored output block is the last step's payload of the two accumulators, each of which took
    the even point's block from zero and then this point's block. -/
theorem outsAt0_odd (c : Dev nD) (t : Fin cfg0.N) (h1 : t.val % 2 = 1) :
    (outsAt0 V c t.val t.isLt).1
      = k0_pay6 (k0_pay4 (xB V c t) (gB V c t) (k0_pay4 (xB V c (prev t)) (gB V c (prev t)) (k0_pay1 (F := F))))
          (sgB V c t)
          (k0_pay5 (xB V c t) (uB V c t) (k0_pay5 (xB V c (prev t)) (uB V c (prev t)) (k0_pay2 (F := F))))
          (suB V c t) := by
  have hA : outsAt0 V c (t.val - 1) (Nat.lt_of_le_of_lt (Nat.sub_le _ _) t.isLt) = caseA0 V c (prev t) (prev_even t h1) :=
    outsAt0_A V c (prev t) (prev_even t h1)
  rw [outsAt0_B V c t h1, caseB0_out, hA, caseA0_acc0, caseA0_acc1]

end Generic

/-! ## At the extended reals -/

section AtIdeal
variable (V : (c : Dev nD) → (b : Ref sig .tc) → Buf (Elt Ideal) ((c : Thread nD τ).loc b))

/-- The last step over two accumulators that each took two blocks from zero, read at `(p, q)`: the two half sums
    joined, scaled by the column's scales, gated. -/
theorem odd_value (a0 a1 : Vec Ideal S512x2048 .f32) (g0 g1 u0 u1 : Vec Ideal S256x2048 .i32)
    (s3 s4 : Vec Ideal S1x256 .f32) (p : Fin 512) (q : Fin 256) :
    k0_pay6 (k0_pay4 a1 g1 (k0_pay4 a0 g0 (k0_pay1 (F := Ideal)))) s3
        (k0_pay5 a1 u1 (k0_pay5 a0 u0 (k0_pay2 (F := Ideal)))) s4 (ix2 p q)
      = (let gateacc := (0 + ∑ k : Fin 2048, a0 (ix2 p k) * (((g0 (ix2 q k)).toInt : ℝ) : EReal))
            + ∑ k : Fin 2048, a1 (ix2 p k) * (((g1 (ix2 q k)).toInt : ℝ) : EReal)
         let upacc := (0 + ∑ k : Fin 2048, a0 (ix2 p k) * (((u0 (ix2 q k)).toInt : ℝ) : EReal))
            + ∑ k : Fin 2048, a1 (ix2 p k) * (((u1 (ix2 q k)).toInt : ℝ) : EReal)
         let g := gateacc * s3 (ix2 (0 : Fin 1) q)
         (g * Ideal.logistic g) * (upacc * s4 (ix2 (0 : Fin 1) q))) := by
  rw [Cert.Mlp.Pay0.pay6_apply, Cert.Mlp.Pay0.pay4_apply, Cert.Mlp.Pay0.pay4_apply, Cert.Mlp.Pay0.pay1_apply, Cert.Mlp.Pay0.pay5_apply, Cert.Mlp.Pay0.pay5_apply,
    Cert.Mlp.Pay0.pay2_apply]

/-- The output block stored at an odd point, element `(p, q)`, from the five input blocks at the point and the point
    before it. -/
theorem out_odd_apply (c : Dev nD) (t : Fin cfg0.N) (h1 : t.val % 2 = 1) (p : Fin 512) (q : Fin 256) :
    (outsAt0 V c t.val t.isLt).1 (ix2 p q)
      = (let gateacc := (0 + ∑ k : Fin 2048, xB V c (prev t) (ix2 p k) * (((gB V c (prev t) (ix2 q k)).toInt : ℝ) : EReal))
            + ∑ k : Fin 2048, xB V c t (ix2 p k) * (((gB V c t (ix2 q k)).toInt : ℝ) : EReal)
         let upacc := (0 + ∑ k : Fin 2048, xB V c (prev t) (ix2 p k) * (((uB V c (prev t) (ix2 q k)).toInt : ℝ) : EReal))
            + ∑ k : Fin 2048, xB V c t (ix2 p k) * (((uB V c t (ix2 q k)).toInt : ℝ) : EReal)
         let g := gateacc * sgB V c t (ix2 (0 : Fin 1) q)
         (g * Ideal.logistic g) * (upacc * suB V c t (ix2 (0 : Fin 1) q))) := by
  rw [outsAt0_odd V c t h1]
  exact odd_value (xB V c (prev t)) (xB V c t) (gB V c (prev t)) (gB V c t) (uB V c (prev t)) (uB V c t)
    (sgB V c t) (suB V c t) p q

end AtIdeal

end Cert.KernelIdeal.FrV

end
-- ==== Proof.MlpElem.lean ====
import proofs.«176034_j64441689309584_1_alg».proof.Proof.MlpBlock
import proofs.«176034_j64441689309584_1_alg».proof.Proof.MlpAcc

/-!
# One element of the first stage from its blocks

The gated product at `(T, O)`, written as the first call computes it — each of the two products
accumulated from zero over the two halves of row `T` of `x` and of row `O` of the weights, then scaled
and gated — is the whole-array function `Spec.Hspec` at `(T, O)`. What each block holds is given as
a hypothesis about the one row it is read along.
-/

noncomputable section

namespace Cert.Mlp.Elem

open Idealize.ShloMosaic Idealize.ShloMosaic.ValueIdx Cert.Mlp.Spec
open scoped BigOperators

/-- Two half sums accumulated from zero are the whole row-by-row product. -/
theorem halves_eq (x : (⟨2, ![2048, 4096]⟩ : Shape).Idx → EReal) (w : (⟨2, ![11008, 4096]⟩ : Shape).Idx → BitVec 32)
    (T : Fin 2048) (O : Fin 11008) (a0 a1 : Fin 2048 → EReal) (g0 g1 : Fin 2048 → BitVec 32)
    (ha0 : ∀ k : Fin 2048, a0 k = x (ix2 T ⟨k.val, by have := k.isLt; omega⟩))
    (ha1 : ∀ k : Fin 2048, a1 k = x (ix2 T ⟨2048 + k.val, by have := k.isLt; omega⟩))
    (hg0 : ∀ k : Fin 2048, g0 k = w (ix2 O ⟨k.val, by have := k.isLt; omega⟩))
    (hg1 : ∀ k : Fin 2048, g1 k = w (ix2 O ⟨2048 + k.val, by have := k.isLt; omega⟩)) :
    (0 + ∑ k : Fin 2048, a0 k * (((g0 k).toInt : ℝ) : EReal)) + ∑ k : Fin 2048, a1 k * (((g1 k).toInt : ℝ) : EReal)
      = ∑ k : Fin 4096, x (ix2 T k) * (((w (ix2 O k)).toInt : ℝ) : EReal) := by
  rw [zero_add, sum_4096_halves (fun k : Fin 4096 => x (ix2 T k) * (((w (ix2 O k)).toInt : ℝ) : EReal))]
  refine congrArg₂ (· + ·) (Finset.sum_congr rfl fun k _ => ?_) (Finset.sum_congr rfl fun k _ => ?_)
  · rw [ha0 k, hg0 k]
  · rw [ha1 k, hg1 k]

/-- The first call's expression at `(T, O)` is `Hspec` there. -/
theorem hspec_elem (x : (⟨2, ![2048, 4096]⟩ : Shape).Idx → EReal) (wg wu : (⟨2, ![11008, 4096]⟩ : Shape).Idx → BitVec 32)
    (sg2 su2 : (⟨2, ![1, 11008]⟩ : Shape).Idx → EReal) (T : Fin 2048) (O : Fin 11008)
    (a0 a1 : Fin 2048 → EReal) (g0 g1 u0 u1 : Fin 2048 → BitVec 32) (s3 s4 : EReal)
    (ha0 : ∀ k : Fin 2048, a0 k = x (ix2 T ⟨k.val, by have := k.isLt; omega⟩))
    (ha1 : ∀ k : Fin 2048, a1 k = x (ix2 T ⟨2048 + k.val, by have := k.isLt; omega⟩))
    (hg0 : ∀ k : Fin 2048, g0 k = wg (ix2 O ⟨k.val, by have := k.isLt; omega⟩))
    (hg1 : ∀ k : Fin 2048, g1 k = wg (ix2 O ⟨2048 + k.val, by have := k.isLt; omega⟩))
    (hu0 : ∀ k : Fin 2048, u0 k = wu (ix2 O ⟨k.val, by have := k.isLt; omega⟩))
    (hu1 : ∀ k : Fin 2048, u1 k = wu (ix2 O ⟨2048 + k.val, by have := k.isLt; omega⟩))
    (hs3 : s3 = sg2 (ix2 (0 : Fin 1) O)) (hs4 : s4 = su2 (ix2 (0 : Fin 1) O)) :
    (let gateacc := (0 + ∑ k : Fin 2048, a0 k * (((g0 k).toInt : ℝ) : EReal)) + ∑ k : Fin 2048, a1 k * (((g1 k).toInt : ℝ) : EReal)
     let upacc := (0 + ∑ k : Fin 2048, a0 k * (((u0 k).toInt : ℝ) : EReal)) + ∑ k : Fin 2048, a1 k * (((u1 k).toInt : ℝ) : EReal)
     let g := gateacc * s3
     (g * Ideal.logistic g) * (upacc * s4))
      = Hspec x wg wu sg2 su2 (ix2 T O) := by
  rw [Hspec_ix2]
  show _ = (gateAt x wg (row sg2) T O * Ideal.logistic (gateAt x wg (row sg2) T O)) * gateAt x wu (row su2) T O
  unfold gateAt
  rw [row_ix1, row_ix1, ← hs3, ← hs4, ← halves_eq x wg T O a0 a1 g0 g1 ha0 ha1 hg0 hg1,
    ← halves_eq x wu T O a0 a1 u0 u1 ha0 ha1 hu0 hu1]

end Cert.Mlp.Elem

end
-- ==== Proof.KI.R0Array.lean ====
/-
  Region 0's output array, over the extended reals: whatever contents the region is entered with, the [2048, 11008]
  array it writes ends holding `Spec.Hspec` of the five arrays it reads — at `(T, O)` the gated product
  `(g · logistic g) · u` of the two scaled row-by-row products.

  A block's element `(p, q)` at grid point `t` sits in its array at the block index times the block size plus the
  coordinate; the block indices are decided once over the grid in closed form. The output block written back at an
  odd point is then, element by element, `Hspec` at the element's place in the array (the two half sums of the
  contraction joined), and the odd points' blocks cover the array.
-/
import proofs.«176034_j64441689309584_1_alg».proof.Proof.KI.R0Value
import proofs.«176034_j64441689309584_1_alg».proof.Proof.MlpBlock
import proofs.«176034_j64441689309584_1_alg».proof.Proof.MlpElem
import Idealize.ShloMosaic.Lib.Pipeline.Value

set_option maxRecDepth 16384

noncomputable section

namespace Cert.KernelIdeal.FrV

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)
open Cert.Mlp
open scoped BigOperators

/-- The block indices of the six windows at a grid point, in closed form. -/
theorem idx_facts0 : ∀ t : Fin cfg0.N,
    win0_0.index t (0 : Fin 2) = t.val / 86 ∧ win0_0.index t (1 : Fin 2) = t.val % 2
    ∧ win0_1.index t (0 : Fin 2) = t.val / 2 % 43 ∧ win0_1.index t (1 : Fin 2) = t.val % 2
    ∧ win0_2.index t (0 : Fin 2) = t.val / 2 % 43 ∧ win0_2.index t (1 : Fin 2) = t.val % 2
    ∧ win0_3.index t (0 : Fin 2) = 0 ∧ win0_3.index t (1 : Fin 2) = t.val / 2 % 43
    ∧ win0_4.index t (0 : Fin 2) = 0 ∧ win0_4.index t (1 : Fin 2) = t.val / 2 % 43
    ∧ win0_5.index t (0 : Fin 2) = t.val / 86 ∧ win0_5.index t (1 : Fin 2) = t.val / 2 % 43 :=
  (by decide +kernel : ∀ t : Fin grid0.N, _)

/-- The row of the [2048, 11008] array that element `p` of point `t`'s output block lies on. -/
def rowOf (t : Fin cfg0.N) (p : Fin 512) : Fin 2048 :=
  ⟨t.val / 86 * 512 + p.val, by have := t.isLt; have hN : cfg0.N = 344 := N_0; have := p.isLt; omega⟩
/-- The column of the [2048, 11008] array that element `q` of point `t`'s output block lies on. -/
def colOf (t : Fin cfg0.N) (q : Fin 256) : Fin 11008 :=
  ⟨t.val / 2 % 43 * 256 + q.val, by have := q.isLt; omega⟩

section AtIdeal
variable (V : (c : Dev nD) → (b : Ref sig .tc) → Buf (Elt Ideal) ((c : Thread nD τ).loc b))

/-- What region 0 leaves in its output array. -/
abbrev G0 (c : Dev nD) : Buf (Elt Ideal) ((cfg0.win 5).arr.view.loc (c.tc : Thread nD τ)) :=
  Spec.Hspec (V c main_arg0) (V c main_arg1) (V c main_arg2) (V c main_v0) (V c main_v1)

/-! ## Where each block's element sits in its array -/

theorem emb5 (t : Fin cfg0.N) (p : Fin 512) (q : Fin 256) :
    ((cfg0.win 5).blk t).view.emb (ix2 p q) = ix2 (rowOf t p) (colOf t q) := by
  obtain ⟨-, -, -, -, -, -, -, -, -, -, e50, e51⟩ := idx_facts0 t
  funext a
  apply Fin.ext
  match a with
  | ⟨0, _⟩ => show win0_5.index t (0 : Fin 2) * 512 + 1 * p.val = t.val / 86 * 512 + p.val; rw [e50]; omega
  | ⟨1, _⟩ => show win0_5.index t (1 : Fin 2) * 256 + 1 * q.val = t.val / 2 % 43 * 256 + q.val; rw [e51]; omega

theorem xB_prev (c : Dev nD) (t : Fin cfg0.N) (h1 : t.val % 2 = 1) (p : Fin 512) (k : Fin 2048) :
    xB V c (prev t) (ix2 p k) = V c main_arg0 (ix2 (rowOf t p) ⟨k.val, by have := k.isLt; omega⟩) := by
  obtain ⟨e00, e01, -⟩ := idx_facts0 (prev t)
  show V c main_arg0 (((cfg0.win 0).blk (prev t)).view.emb (ix2 p k)) = _
  refine congrArg (V c main_arg0) (funext fun a => Fin.ext ?_)
  match a with
  | ⟨0, _⟩ => show win0_0.index (prev t) (0 : Fin 2) * 512 + 1 * p.val = t.val / 86 * 512 + p.val; rw [e00]; show (t.val - 1) / 86 * 512 + 1 * p.val = _; omega
  | ⟨1, _⟩ => show win0_0.index (prev t) (1 : Fin 2) * 2048 + 1 * k.val = k.val; rw [e01]; show (t.val - 1) % 2 * 2048 + 1 * k.val = _; omega

theorem xB_cur (c : Dev nD) (t : Fin cfg0.N) (h1 : t.val % 2 = 1) (p : Fin 512) (k : Fin 2048) :
    xB V c t (ix2 p k) = V c main_arg0 (ix2 (rowOf t p) ⟨2048 + k.val, by have := k.isLt; omega⟩) := by
  obtain ⟨e00, e01, -⟩ := idx_facts0 t
  show V c main_arg0 (((cfg0.win 0).blk t).view.emb (ix2 p k)) = _
  refine congrArg (V c main_arg0) (funext fun a => Fin.ext ?_)
  match a with
  | ⟨0, _⟩ => show win0_0.index t (0 : Fin 2) * 512 + 1 * p.val = t.val / 86 * 512 + p.val; rw [e00]; omega
  | ⟨1, _⟩ => show win0_0.index t (1 : Fin 2) * 2048 + 1 * k.val = 2048 + k.val; rw [e01]; omega

theorem gB_prev (c : Dev nD) (t : Fin cfg0.N) (h1 : t.val % 2 = 1) (q : Fin 256) (k : Fin 2048) :
    gB V c (prev t) (ix2 q k) = V c main_arg1 (ix2 (colOf t q) ⟨k.val, by have := k.isLt; omega⟩) := by
  obtain ⟨-, -, ea, eb, -⟩ := idx_facts0 (prev t)
  show V c main_arg1 (((cfg0.win 1).blk (prev t)).view.emb (ix2 q k)) = _
  refine congrArg (V c main_arg1) (funext fun a => Fin.ext ?_)
  match a with
  | ⟨0, _⟩ => show win0_1.index (prev t) (0 : Fin 2) * 256 + 1 * q.val = t.val / 2 % 43 * 256 + q.val; rw [ea]; show (t.val - 1) / 2 % 43 * 256 + 1 * q.val = _; omega
  | ⟨1, _⟩ => show win0_1.index (prev t) (1 : Fin 2) * 2048 + 1 * k.val = k.val; rw [eb]; show (t.val - 1) % 2 * 2048 + 1 * k.val = _; omega

theorem gB_cur (c : Dev nD) (t : Fin cfg0.N) (h1 : t.val % 2 = 1) (q : Fin 256) (k : Fin 2048) :
    gB V c t (ix2 q k) = V c main_arg1 (ix2 (colOf t q) ⟨2048 + k.val, by have := k.isLt; omega⟩) := by
  obtain ⟨-, -, ea, eb, -⟩ := idx_facts0 t
  show V c main_arg1 (((cfg0.win 1).blk t).view.emb (ix2 q k)) = _
  refine congrArg (V c main_arg1) (funext fun a => Fin.ext ?_)
  match a with
  | ⟨0, _⟩ => show win0_1.index t (0 : Fin 2) * 256 + 1 * q.val = t.val / 2 % 43 * 256 + q.val; rw [ea]; omega
  | ⟨1, _⟩ => show win0_1.index t (1 : Fin 2) * 2048 + 1 * k.val = 2048 + k.val; rw [eb]; omega

theorem uB_prev (c : Dev nD) (t : Fin cfg0.N) (h1 : t.val % 2 = 1) (q : Fin 256) (k : Fin 2048) :
    uB V c (prev t) (ix2 q k) = V c main_arg2 (ix2 (colOf t q) ⟨k.val, by have := k.isLt; omega⟩) := by
  obtain ⟨-, -, -, -, ea, eb, -⟩ := idx_facts0 (prev t)
  show V c main_arg2 (((cfg0.win 2).blk (prev t)).view.emb (ix2 q k)) = _
  refine congrArg (V c main_arg2) (funext fun a => Fin.ext ?_)
  match a with
  | ⟨0, _⟩ => show win0_2.index (prev t) (0 : Fin 2) * 256 + 1 * q.val = t.val / 2 % 43 * 256 + q.val; rw [ea]; show (t.val - 1) / 2 % 43 * 256 + 1 * q.val = _; omega
  | ⟨1, _⟩ => show win0_2.index (prev t) (1 : Fin 2) * 2048 + 1 * k.val = k.val; rw [eb]; show (t.val - 1) % 2 * 2048 + 1 * k.val = _; omega

theorem uB_cur (c : Dev nD) (t : Fin cfg0.N) (h1 : t.val % 2 = 1) (q : Fin 256) (k : Fin 2048) :
    uB V c t (ix2 q k) = V c main_arg2 (ix2 (colOf t q) ⟨2048 + k.val, by have := k.isLt; omega⟩) := by
  obtain ⟨-, -, -, -, ea, eb, -⟩ := idx_facts0 t
  show V c main_arg2 (((cfg0.win 2).blk t).view.emb (ix2 q k)) = _
  refine congrArg (V c main_arg2) (funext fun a => Fin.ext ?_)
  match a with
  | ⟨0, _⟩ => show win0_2.index t (0 : Fin 2) * 256 + 1 * q.val = t.val / 2 % 43 * 256 + q.val; rw [ea]; omega
  | ⟨1, _⟩ => show win0_2.index t (1 : Fin 2) * 2048 + 1 * k.val = 2048 + k.val; rw [eb]; omega

theorem sgB_cur (c : Dev nD) (t : Fin cfg0.N) (q : Fin 256) :
    sgB V c t (ix2 (0 : Fin 1) q) = V c main_v0 (ix2 (0 : Fin 1) (colOf t q)) := by
  obtain ⟨-, -, -, -, -, -, ea, eb, -⟩ := idx_facts0 t
  show V c main_v0 (((cfg0.win 3).blk t).view.emb (ix2 (0 : Fin 1) q)) = _
  refine congrArg (V c main_v0) (funext fun a => Fin.ext ?_)
  match a with
  | ⟨0, _⟩ => show win0_3.index t (0 : Fin 2) * 1 + 1 * 0 = 0; rw [ea]
  | ⟨1, _⟩ => show win0_3.index t (1 : Fin 2) * 256 + 1 * q.val = t.val / 2 % 43 * 256 + q.val; rw [eb]; omega

theorem suB_cur (c : Dev nD) (t : Fin cfg0.N) (q : Fin 256) :
    suB V c t (ix2 (0 : Fin 1) q) = V c main_v1 (ix2 (0 : Fin 1) (colOf t q)) := by
  obtain ⟨-, -, -, -, -, -, -, -, ea, eb, -⟩ := idx_facts0 t
  show V c main_v1 (((cfg0.win 4).blk t).view.emb (ix2 (0 : Fin 1) q)) = _
  refine congrArg (V c main_v1) (funext fun a => Fin.ext ?_)
  match a with
  | ⟨0, _⟩ => show win0_4.index t (0 : Fin 2) * 1 + 1 * 0 = 0; rw [ea]
  | ⟨1, _⟩ => show win0_4.index t (1 : Fin 2) * 256 + 1 * q.val = t.val / 2 % 43 * 256 + q.val; rw [eb]; omega

/-! ## The written-back block, the cover, the array -/

/-- What an odd point writes back is its block of `G0`. -/
theorem flushed5_eq (c : Dev nD) (t : Fin cfg0.N) (hf : (cfg0.win 5).flush t = true) :
    (dat0 V c).flushed 5 t = ((cfg0.win 5).blk t).view.read (Elt Ideal) (G0 V c) := by
  have h1 : t.val % 2 = 1 := (flush0_5 t).mp hf
  show (cfg0.win 5).cut (grid0.coords t) ((dat0 V c).after 5 t) = _
  rw [after0_5]
  funext j
  obtain ⟨p, q, rfl⟩ : ∃ (p : Fin 512) (q : Fin 256), j = ix2 p q := ⟨j 0, j 1, eq_ix2 j⟩
  show (outsAt0 V c t.val t.isLt).1 (ix2 p q) = G0 V c (((cfg0.win 5).blk t).view.emb (ix2 p q))
  rw [out_odd_apply V c t h1 p q, emb5 t p q]
  exact Elem.hspec_elem (V c main_arg0) (V c main_arg1) (V c main_arg2) (V c main_v0) (V c main_v1) (rowOf t p) (colOf t q)
    (fun k => xB V c (prev t) (ix2 p k)) (fun k => xB V c t (ix2 p k))
    (fun k => gB V c (prev t) (ix2 q k)) (fun k => gB V c t (ix2 q k))
    (fun k => uB V c (prev t) (ix2 q k)) (fun k => uB V c t (ix2 q k))
    (sgB V c t (ix2 (0 : Fin 1) q)) (suB V c t (ix2 (0 : Fin 1) q))
    (xB_prev V c t h1 p) (xB_cur V c t h1 p) (gB_prev V c t h1 q) (gB_cur V c t h1 q) (uB_prev V c t h1 q) (uB_cur V c t h1 q)
    (sgB_cur V c t q) (suB_cur V c t q)

/-- An index of the array is in point `t`'s block iff each coordinate is in the block's range on its axis. -/
theorem mem_blk5 (t : Fin cfg0.N) (i : S2048x11008.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v2).slice (win0_5.rect t)).set ↔ _
  rw [View.set_slice_whole, Rect.mem_set_unit]
  exact Iff.rfl

/-- Every index of the array is in the block of an odd point: the point of its row block and column block, last
    contraction block. -/
theorem cover5 (i : S2048x11008.Idx) :
    ∃ t : Fin cfg0.N, (cfg0.win 5).flush t = true ∧ i ∈ ((cfg0.win 5).blk t).view.set := by
  have hi0 : (i 0).val < 2048 := (i 0).isLt
  have hi1 : (i 1).val < 11008 := (i 1).isLt
  have hN : cfg0.N = 344 := N_0
  have hlt : ((i 0).val / 512 * 43 + (i 1).val / 256) * 2 + 1 < cfg0.N := by omega
  obtain ⟨-, -, -, -, -, -, -, -, -, -, e50, e51⟩ := idx_facts0 ⟨((i 0).val / 512 * 43 + (i 1).val / 256) * 2 + 1, hlt⟩
  refine ⟨⟨((i 0).val / 512 * 43 + (i 1).val / 256) * 2 + 1, hlt⟩, (flush0_5 _).mpr (by show (((i 0).val / 512 * 43 + (i 1).val / 256) * 2 + 1) % 2 = 1; omega), ?_⟩
  rw [mem_blk5]
  intro a
  match a with
  | ⟨0, _⟩ =>
    show win0_5.index ⟨((i 0).val / 512 * 43 + (i 1).val / 256) * 2 + 1, hlt⟩ (0 : Fin 2) * 512 ≤ (i 0).val ∧ (i 0).val < win0_5.index ⟨((i 0).val / 512 * 43 + (i 1).val / 256) * 2 + 1, hlt⟩ (0 : Fin 2) * 512 + 512
    rw [e50]
    show (((i 0).val / 512 * 43 + (i 1).val / 256) * 2 + 1) / 86 * 512 ≤ (i 0).val ∧ (i 0).val < (((i 0).val / 512 * 43 + (i 1).val / 256) * 2 + 1) / 86 * 512 + 512
    omega
  | ⟨1, _⟩ =>
    show win0_5.index ⟨((i 0).val / 512 * 43 + (i 1).val / 256) * 2 + 1, hlt⟩ (1 : Fin 2) * 256 ≤ (i 1).val ∧ (i 1).val < win0_5.index ⟨((i 0).val / 512 * 43 + (i 1).val / 256) * 2 + 1, hlt⟩ (1 : Fin 2) * 256 + 256
    rw [e51]
    show (((i 0).val / 512 * 43 + (i 1).val / 256) * 2 + 1) / 2 % 43 * 256 ≤ (i 1).val ∧ (i 1).val < (((i 0).val / 512 * 43 + (i 1).val / 256) * 2 + 1) / 2 % 43 * 256 + 256
    omega

/-- The array region 0 leaves: the gated product of the two scaled products, whatever the region was entered with. -/
theorem arrAt0_eq (c : Dev nD) : (dat0 V c).arrAt 5 cfg0.N = G0 V c :=
  (dat0 V c).arrAt_eq_of_cover 5 (G0 V c) (flushed5_eq V c) cover5

end AtIdeal

end Cert.KernelIdeal.FrV

end
-- ==== Proof.KI.R1Piece.lean ====
/-
  What each case of the down-projection body leaves, as the payloads of the blocks it was given.

  At a first contraction block the accumulator ends holding one accumulation step over the zero splat; at a later
  block it ends holding one accumulation step over what it held on entry; at the last block the output block is
  that new accumulator value scaled by the scale row. Each buffer is stored whole, so what it holds afterwards is the
  last store's payload, and a whole load after a whole store reads that payload.
-/
import proofs.«176034_j64441689309584_1_alg».proof.Proof.KI.R1Frame
import proofs.«176034_j64441689309584_1_alg».proof.Proof.LibReadCov

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 access, as the constant function. -/
theorem hz2_r1 : (![0, 0] : Fin 2 → Nat) = fun _ => 0 := funext fun a => by
  match a with
  | ⟨0, _⟩ => rfl
  | ⟨1, _⟩ => rfl

/-- The accumulator at a first contraction block: zeroed, then the block's product added. -/
theorem sout1_A_0_eq (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x256 .bf16) (x1 : Vec F S1024x256 .i32) (x2 : Vec F S1x1024 .f32) :
    sout1_A_0 c i arg3 harg3 arg4 harg4 arg5 harg5 arg6 harg6 arg7 harg7 hc0 hc1 x0 x1 x2 = k1_pay2 x0 x1 (k1_pay1 (F := F)) := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero hz2_r1, View.readCov_unit_zero _ hz2_r1]
  simp only [View.readAt_eq_ld, harg3.read_unread, harg4.read_unread, View.ld_unit_zero (S := S1024x256) hz2_r1]

/-- The accumulator at a middle contraction block: the block's product added to what it held on entry. -/
theorem sout1_B_0_eq (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x256 .bf16) (x1 : Vec F S1024x256 .i32) (x2 : Vec F S1x1024 .f32) (xs0 : Vec F S1024x1024 .f32) :
    sout1_B_0 c i arg3 harg3 arg4 harg4 arg5 harg5 arg6 harg6 arg7 harg7 hc0 hc1 x0 x1 x2 xs0 = k1_pay2 x0 x1 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero hz2_r1]
  simp only [View.readAt_eq_ld, harg3.read_unread, harg4.read_unread, harg7.read_unread, View.ld_unit_zero (S := S1024x256) hz2_r1, View.ld_unit_zero (S := S1024x1024) hz2_r1]

/-- The accumulator at the last contraction block: the block's product added to what it held on entry. -/
theorem sout1_C_0_eq (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x256 .bf16) (x1 : Vec F S1024x256 .i32) (x2 : Vec F S1x1024 .f32) (xs0 : Vec F S1024x1024 .f32) :
    sout1_C_0 c i arg3 harg3 arg4 harg4 arg5 harg5 arg6 harg6 arg7 harg7 hc0 hc1 x0 x1 x2 xs0 = k1_pay2 x0 x1 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero hz2_r1]
  simp only [View.readAt_eq_ld, harg3.read_unread, harg4.read_unread, harg7.read_unread, View.ld_unit_zero (S := S1024x256) hz2_r1, View.ld_unit_zero (S := S1024x1024) hz2_r1]

/-- The output block at the last contraction block: the new accumulator value scaled by the scale row. -/
theorem out1_C_3_eq (c : Dev nD) (i : grid1.Coords) (arg3 : Memref sig .tc .vmem S1024x256 .bf16) (harg3 : arg3.IsWhole) (arg4 : Memref sig .tc .vmem S1024x256 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x256 .bf16) (x1 : Vec F S1024x256 .i32) (x2 : Vec F S1x1024 .f32) (xs0 : Vec F S1024x1024 .f32) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz2_r1, View.readCov_unit_zero _ hz2_r1]
  simp only [View.readAt_eq_ld, harg3.read_unread, harg4.read_unread, harg5.read_unread, harg7.read_unread, View.ld_unit_zero (S := S1024x256) hz2_r1, View.ld_unit_zero (S := S1024x1024) hz2_r1, View.ld_unit_zero (S := S1x1024) hz2_r1]

end Cert.KernelIdeal.Fr

end
-- ==== Proof.MlpPay1.lean ====
import proofs.«176034_j64441689309584_1_alg».proof.Proof.Gen.KernelIdeal.Skeleton
import Idealize.ShloMosaic.Lib.ValueIdx
import Idealize.ShloMosaic.Lib.ValueLayout
import Idealize.ShloMosaic.PureOps.Ideal.Laws

/-!
# The second call's payloads, read at one element

Each value the down-projection body stores is read here at an index `(p, q)` of its block, over
the extended reals: the zero splat is `0`; one accumulation step adds to the stored partial sum
the dot product of row `p` of the hidden block with row `q` of the integer weight block (each
weight read as its signed integer); the last step scales the accumulator by its column's scale.
-/

noncomputable section

namespace Cert.Mlp.Pay1

open Cert.KernelIdeal Cert.KernelIdeal.Gen Idealize.ShloMosaic Idealize.ShloMosaic.ValueIdx
open scoped BigOperators

/-! ## The contraction's operand indices -/

/-- The left operand's row is the output's row. -/
theorem lhs_0 (i : S1024x1024.Idx) (c : dot_S1024x256_S1024x256_S1024x1024_1_1_0_0_n_n.contr.Idx) :
    (dot_S1024x256_S1024x256_S1024x1024_1_1_0_0_n_n.lhsIdx i c 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
/-- The left operand's column is the contraction coordinate. -/
theorem lhs_1 (i : S1024x1024.Idx) (c : dot_S1024x256_S1024x256_S1024x1024_1_1_0_0_n_n.contr.Idx) :
    (dot_S1024x256_S1024x256_S1024x1024_1_1_0_0_n_n.lhsIdx i c 1).val = (c ⟨0, by decide⟩).val :=
  dot_S1024x256_S1024x256_S1024x1024_1_1_0_0_n_n.lhsIdx_val_of_single rfl i c
/-- The right operand's row is the output's column. -/
theorem rhs_0 (i : S1024x1024.Idx) (c : dot_S1024x256_S1024x256_S1024x1024_1_1_0_0_n_n.contr.Idx) :
    (dot_S1024x256_S1024x256_S1024x1024_1_1_0_0_n_n.rhsIdx i c 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl
/-- The right operand's column is the contraction coordinate. -/
theorem rhs_1 (i : S1024x1024.Idx) (c : dot_S1024x256_S1024x256_S1024x1024_1_1_0_0_n_n.contr.Idx) :
    (dot_S1024x256_S1024x256_S1024x1024_1_1_0_0_n_n.rhsIdx i c 1).val = (c ⟨0, by decide⟩).val :=
  dot_S1024x256_S1024x256_S1024x1024_1_1_0_0_n_n.rhsIdx_val_of_single rfl i c

/-- The product into the zero splat, at `(p, q)`: the sum over the 256 contraction coordinates of
    the left operand's row `p` times the right operand's row `q`. -/
theorem matmul_zero_apply (a : FVec Ideal S1024x256 .bf16) (b : FVec Ideal S1024x256 .bf16) (p q : Fin 1024) :
    matmul dot_S1024x256_S1024x256_S1024x1024_1_1_0_0_n_n none a b (constant S1024x1024 .f32 0x00000000#32) (ix2 p q)
      = ∑ k : Fin 256, a (ix2 p k) * b (ix2 q k) := by
  refine (Ideal.matmul_constant_zero_apply dot_S1024x256_S1024x256_S1024x1024_1_1_0_0_n_n none a b (ix2 p q)).trans ?_
  rw [← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q)
      ((contrEquiv1 dot_S1024x256_S1024x256_S1024x1024_1_1_0_0_n_n 256 rfl rfl).symm k) = ix2 p k :=
    funext fun ax => Fin.ext (by
      match ax with
      | ⟨0, _⟩ => exact lhs_0 _ _
      | ⟨1, _⟩ => exact (lhs_1 _ _).trans hk)
  have er : dot_S1024x256_S1024x256_S1024x1024_1_1_0_0_n_n.rhsIdx (ix2 p q)
      ((contrEquiv1 dot_S1024x256_S1024x256_S1024x1024_1_1_0_0_n_n 256 rfl rfl).symm k) = ix2 q k :=
    funext fun ax => Fin.ext (by
      match ax with
      | ⟨0, _⟩ => exact rhs_0 _ _
      | ⟨1, _⟩ => exact (rhs_1 _ _).trans hk)
  rw [el, er]

/-! ## The payloads -/

/-- The accumulator's initial value is zero everywhere. -/
theorem pay1_apply (p q : Fin 1024) : k1_pay1 (F := Ideal) (ix2 p q) = 0 := by
  unfold k1_pay1
  rw [shapeCast_self]
  exact Ideal.ofBits_zero_f32

/-- One accumulation step of the down product: the stored partial sum plus this block's dot product. -/
theorem pay2_apply (v3 : Vec Ideal S1024x256 .bf16) (v5 : Vec Ideal S1024x256 .i32) (v7 : Vec Ideal S1024x1024 .f32)
    (p q : Fin 1024) :
    k1_pay2 v3 v5 v7 (ix2 p q) = v7 (ix2 p q) + ∑ k : Fin 256, v3 (ix2 p k) * (((v5 (ix2 q k)).toInt : ℝ) : EReal) := by
  unfold k1_pay2
  rw [shapeCast_self, shapeCast_self]
  refine congrArg (v7 (ix2 p q) + ·) ?_
  exact matmul_zero_apply _ _ p q

/-- The last step: the accumulator scaled by its column's scale. -/
theorem pay3_apply (v16 : Vec Ideal S1024x1024 .f32) (v17 : Vec Ideal S1x1024 .f32) (p q : Fin 1024) :
    k1_pay3 v16 v17 (ix2 p q) = v16 (ix2 p q) * v17 (ix2 (0 : Fin 1) q) := by
  unfold k1_pay3
  rw [shapeCast_self]
  show v16 (ix2 p q) * broadcastTo S1024x1024 v17 broadcasts_S1x1024_S1024x1024 (ix2 p q) = _
  rw [broadcastTo_1b_ab_apply v17]

end Cert.Mlp.Pay1

end
-- ==== Proof.KI.R1Value.lean ====
/-
  Region 1's values at the ideal instance, for any contents `V` the region is entered with.

  Grid point `t` of the 2 × 4 × 43 grid works on rows [1024·(t/172), +1024) of the intermediate array, on rows
  [1024·((t/43) mod 4), +1024) of the down weights (the output's columns) and on the contraction block t mod 43 (256
  columns of both). After the body at `t` the accumulator holds, at (p, q), the sum over the contraction blocks 0 … t mod 43
  of the products H[row, o] · w[col, o]: zero plus the first block's sum at a first block, the point before's value plus this
  block's sum afterwards. At a last contraction block all 43 block sums are in — the whole contraction — and the output
  block is that times the scale row.
-/
import proofs.«176034_j64441689309584_1_alg».proof.Proof.KI.R1Piece
import proofs.«176034_j64441689309584_1_alg».proof.Proof.MlpPay1
import proofs.«176034_j64441689309584_1_alg».proof.Proof.MlpSpec
import proofs.«176034_j64441689309584_1_alg».proof.Proof.MlpAcc
import proofs.«176034_j64441689309584_1_alg».proof.Proof.MlpBlock
import Idealize.ShloMosaic.Lib.Pipeline.Value

set_option maxRecDepth 16384

noncomputable section

namespace Cert.KernelIdeal.FrV

open Cert.KernelIdeal Cert.KernelIdeal.Gen Cert.KernelIdeal.Fr
open Idealize.ShloMosaic Idealize.ShloMosaic.TcCoe Idealize.ShloMosaic.ValueIdx
open Idealize.ShloMosaic.Pipeline (Dat)
open Cert.Mlp

variable (V : (c : Dev nD) → (b : Ref sig .tc) → Buf (Elt Ideal) ((c : Thread nD τ).loc b))

/-- The printed index maps over the grid, in closed form. -/
theorem idx1 : ∀ t : Fin cfg1.N,
    win1_0.index t (0 : Fin 2) = t.val / 172 ∧ win1_0.index t (1 : Fin 2) = t.val % 43
    ∧ win1_1.index t (0 : Fin 2) = t.val / 43 % 4 ∧ win1_1.index t (1 : Fin 2) = t.val % 43
    ∧ win1_2.index t (0 : Fin 2) = 0 ∧ win1_2.index t (1 : Fin 2) = t.val / 43 % 4
    ∧ win1_3.index t (0 : Fin 2) = t.val / 172 ∧ win1_3.index t (1 : Fin 2) = t.val / 43 % 4 :=
  (by decide +kernel : ∀ t : Fin grid1.N, _)

theorem tlt1 (t : Fin cfg1.N) : t.val < 344 := lt_of_lt_of_eq t.isLt (show cfg1.N = 344 from N_1)

/-- The row of the arrays that row `p` of point `t`'s blocks is. -/
def rowOf1 (t : Fin cfg1.N) (p : Fin 1024) : Fin 2048 := ⟨t.val / 172 * 1024 + p.val, by have := tlt1 t; omega⟩
/-- The output column (the down weights' row) that column `q` of point `t`'s blocks is. -/
def colOf1 (t : Fin cfg1.N) (q : Fin 1024) : Fin 4096 := ⟨t.val / 43 % 4 * 1024 + q.val, by omega⟩

/-- The region's three input arrays as functions. -/
abbrev Hin (c : Dev nD) : S2048x11008.Idx → EReal := V c main_v2
abbrev Wdn (c : Dev nD) : S4096x11008.Idx → BitVec 32 := V c main_arg3
abbrev Sdn (c : Dev nD) : S1x4096.Idx → EReal := V c main_v3

/-- The contraction's summand at output position (T, J). -/
def term (c : Dev nD) (T : Fin 2048) (J : Fin 4096) : Fin 11008 → EReal :=
  fun o => Hin V c (ix2 T o) * (((Wdn V c (ix2 J o)).toInt : ℝ) : EReal)

/-! ## The blocks read in the arrays' coordinates -/

theorem blk0 (c : Dev nD) (t : Fin cfg1.N) (p : Fin 1024) (k : Fin 256) :
    (iblk1 V c 0 t : S1024x256.Idx → EReal) (ix2 p k)
      = Hin V c (ix2 (rowOf1 t p) (⟨t.val % 43 * 256 + k.val, by omega⟩ : Fin 11008)) := by
  obtain ⟨e0, e1, -⟩ := idx1 t
  show Hin V c (((cfg1.win 0).blk t).view.emb (ix2 p k)) = _
  refine congrArg _ ?_
  funext a; apply Fin.ext
  match a with
  | ⟨0, _⟩ => show win1_0.index t (0 : Fin 2) * 1024 + 1 * p.val = t.val / 172 * 1024 + p.val; omega
  | ⟨1, _⟩ => show win1_0.index t (1 : Fin 2) * 256 + 1 * k.val = t.val % 43 * 256 + k.val; omega

theorem blk1 (c : Dev nD) (t : Fin cfg1.N) (q : Fin 1024) (k : Fin 256) :
    (iblk1 V c 1 t : S1024x256.Idx → BitVec 32) (ix2 q k)
      = Wdn V c (ix2 (colOf1 t q) (⟨t.val % 43 * 256 + k.val, by omega⟩ : Fin 11008)) := by
  obtain ⟨-, -, e2, e3, -⟩ := idx1 t
  show Wdn V c (((cfg1.win 1).blk t).view.emb (ix2 q k)) = _
  refine congrArg _ ?_
  funext a; apply Fin.ext
  match a with
  | ⟨0, _⟩ => show win1_1.index t (0 : Fin 2) * 1024 + 1 * q.val = t.val / 43 % 4 * 1024 + q.val; omega
  | ⟨1, _⟩ => show win1_1.index t (1 : Fin 2) * 256 + 1 * k.val = t.val % 43 * 256 + k.val; omega

theorem blk2 (c : Dev nD) (t : Fin cfg1.N) (q : Fin 1024) :
    (iblk1 V c 2 t : S1x1024.Idx → EReal) (ix2 (0 : Fin 1) q) = Sdn V c (ix2 (0 : Fin 1) (colOf1 t q)) := by
  obtain ⟨-, -, -, -, e4, e5, -⟩ := idx1 t
  show Sdn V c (((cfg1.win 2).blk t).view.emb (ix2 (0 : Fin 1) q)) = _
  refine congrArg _ ?_
  funext a; apply Fin.ext
  match a with
  | ⟨0, _⟩ => show win1_2.index t (0 : Fin 2) * 1 + 1 * (0 : Fin 1).val = (0 : Fin 1).val; rw [e4]; rfl
  | ⟨1, _⟩ => show win1_2.index t (1 : Fin 2) * 1024 + 1 * q.val = t.val / 43 % 4 * 1024 + q.val; omega

/-! ## One accumulation step -/

/-- Adding point `t`'s block product to `prev` adds, at (p, q), the block sum of the contraction's summand. -/
theorem step1 (c : Dev nD) (t : Fin cfg1.N) (prev : Vec Ideal S1024x1024 .f32) (p q : Fin 1024) :
    k1_pay2 (iblk1 V c 0 t) (iblk1 V c 1 t) prev (ix2 p q)
      = prev (ix2 p q) + Spec.blockSum256 (term V c (rowOf1 t p) (colOf1 t q)) ⟨t.val % 43, Nat.mod_lt _ (by decide)⟩ := by
  refine (Pay1.pay2_apply (iblk1 V c 0 t) (iblk1 V c 1 t) prev p q).trans ?_
  refine congrArg (prev (ix2 p q) + ·) ?_
  unfold Spec.blockSum256
  refine Finset.sum_congr rfl fun k _ => ?_
  rw [blk0 V c t p k, blk1 V c t q k]
  rfl

/-! ## The accumulator after each point -/

theorem acc1_first (c : Dev nD) (t : Fin cfg1.N) (h0 : t.val % 43 = 0) (p q : Fin 1024) :
    (outsAt1 V c t.val t.isLt).2 (ix2 p q) = Spec.partial256 (term V c (rowOf1 t p) (colOf1 t q)) (t.val % 43 + 1) := by
  rw [outsAt1_A V c t h0]
  unfold caseA1; dsimp only
  have hb : t.val % 43 < 43 := Nat.mod_lt _ (by decide)
  rw [sout1_A_0_eq, step1 V c t _ p q, Pay1.pay1_apply, Spec.partial256_succ _ _ hb]
  rw [show Spec.partial256 (term V c (rowOf1 t p) (colOf1 t q)) (t.val % 43) = 0 from by rw [h0]; exact Spec.partial256_zero _]

theorem acc1_later (c : Dev nD) (t : Fin cfg1.N) (h0 : ¬t.val % 43 = 0)
    (ih : ∀ p q : Fin 1024, (outsAt1 V c (t.val - 1) (Nat.lt_of_le_of_lt (Nat.sub_le _ _) t.isLt)).2 (ix2 p q)
      = Spec.partial256 (term V c (rowOf1 t p) (colOf1 t q)) (t.val % 43)) (p q : Fin 1024) :
    (outsAt1 V c t.val t.isLt).2 (ix2 p q) = Spec.partial256 (term V c (rowOf1 t p) (colOf1 t q)) (t.val % 43 + 1) := by
  have hb : t.val % 43 < 43 := Nat.mod_lt _ (by decide)
  by_cases h1 : t.val % 43 = 42
  · rw [outsAt1_C V c t h1]
    unfold caseC1; dsimp only
    rw [sout1_C_0_eq, step1 V c t _ p q, ih p q, Spec.partial256_succ _ _ hb]
  · rw [outsAt1_B V c t h0 h1]
    unfold caseB1; dsimp only
    rw [sout1_B_0_eq, step1 V c t _ p q, ih p q, Spec.partial256_succ _ _ hb]

/-- THE ACCUMULATOR after point `n`: the partial sum of the contraction over the blocks 0 … n mod 43. -/
theorem acc1 (c : Dev nD) : ∀ (n : ℕ) (hn : n < cfg1.N) (p q : Fin 1024),
    (outsAt1 V c n hn).2 (ix2 p q) = Spec.partial256 (term V c (rowOf1 ⟨n, hn⟩ p) (colOf1 ⟨n, hn⟩ q)) (n % 43 + 1) := by
  intro n
  induction n with
  | zero => intro hn p q; exact acc1_first V c ⟨0, hn⟩ (Nat.zero_mod _) p q
  | succ n ih =>
    intro hn p q
    by_cases h0 : (n + 1) % 43 = 0
    · exact acc1_first V c ⟨n + 1, hn⟩ h0 p q
    · refine acc1_later V c ⟨n + 1, hn⟩ h0 (fun p q => ?_) p q
      have hn' : n < cfg1.N := Nat.lt_of_succ_lt hn
      have h344 : n + 1 < 344 := lt_of_lt_of_eq hn (show cfg1.N = 344 from N_1)
      have e := ih hn' p q
      have hr : rowOf1 ⟨n, hn'⟩ p = rowOf1 ⟨n + 1, hn⟩ p := Fin.ext (by show n / 172 * 1024 + p.val = (n + 1) / 172 * 1024 + p.val; omega)
      have hc : colOf1 ⟨n, hn'⟩ q = colOf1 ⟨n + 1, hn⟩ q := Fin.ext (by show n / 43 % 4 * 1024 + q.val = (n + 1) / 43 % 4 * 1024 + q.val; omega)
      have hm : n % 43 + 1 = (n + 1) % 43 := by omega
      rw [hr, hc, hm] at e
      exact e

/-! ## The output block at a last contraction block -/

theorem out1_fst (c : Dev nD) (t : Fin cfg1.N) (h1 : t.val % 43 = 42) :
    (outsAt1 V c t.val t.isLt).1 = k1_pay3 ((outsAt1 V c t.val t.isLt).2) (iblk1 V c 2 t) := by
  rw [outsAt1_C V c t h1]
  unfold caseC1; dsimp only
  rw [out1_C_3_eq, sout1_C_0_eq]

/-- What a flushing point leaves in the output block, at (p, q): the specification's second stage at the block's place. -/
theorem out1_at (c : Dev nD) (t : Fin cfg1.N) (h1 : t.val % 43 = 42) (p q : Fin 1024) :
    (outsAt1 V c t.val t.isLt).1 (ix2 p q) = Spec.Ospec (Hin V c) (Wdn V c) (Sdn V c) (ix2 (rowOf1 t p) (colOf1 t q)) := by
  rw [out1_fst V c t h1]
  refine (Pay1.pay3_apply ((outsAt1 V c t.val t.isLt).2) (iblk1 V c 2 t) p q).trans ?_
  rw [acc1 V c t.val t.isLt p q, blk2 V c t q, h1, Spec.partial256_all, Spec.Ospec_ix2]
  rfl

end Cert.KernelIdeal.FrV

end
-- ==== Proof.KI.R1Array.lean ====
/-
  Region 1's output array after the run, at the ideal instance, for any contents `V` the region is entered with.

  The output window is written back exactly at the last contraction blocks (t mod 43 = 42); what such a point leaves is
  block `t` of ONE whole-array function, the specification's second stage of the region's three input arrays; and those
  points' blocks (2 × 4 of them, 1024 × 1024 each) cover the 2048 × 4096 array. So the array ends holding that function.
-/
import proofs.«176034_j64441689309584_1_alg».proof.Proof.KI.R1Value

set_option maxRecDepth 16384

noncomputable section

namespace Cert.KernelIdeal.FrV

open Cert.KernelIdeal Cert.KernelIdeal.Gen Cert.KernelIdeal.Fr
open Idealize.ShloMosaic Idealize.ShloMosaic.TcCoe Idealize.ShloMosaic.ValueIdx
open Idealize.ShloMosaic.Pipeline (Dat)
open Cert.Mlp

variable (V : (c : Dev nD) → (b : Ref sig .tc) → Buf (Elt Ideal) ((c : Thread nD τ).loc b))

/-- The function the output array ends at. -/
abbrev G1 (c : Dev nD) : S2048x4096.Idx → EReal := Spec.Ospec (Hin V c) (Wdn V c) (Sdn V c)

/-- WHAT A FLUSHING POINT WRITES BACK is block `t` of `G1`. -/
theorem flushed1_eq (c : Dev nD) (t : Fin cfg1.N) (hf : (cfg1.win 3).flush t = true) :
    (dat1 V c).flushed 3 t = ((cfg1.win 3).blk t).view.read (Elt Ideal) (G1 V c) := by
  have h1 : t.val % 43 = 42 := (flush1_3 t).mp hf
  obtain ⟨-, -, -, -, -, -, e6, e7⟩ := idx1 t
  show (cfg1.win 3).cut (grid1.coords t) ((dat1 V c).after 3 t) = _
  rw [after1_3]
  funext j
  obtain ⟨p, q, rfl⟩ : ∃ (p q : Fin 1024), j = ix2 p q := ⟨j 0, j 1, eq_ix2 j⟩
  show (outsAt1 V c t.val t.isLt).1 (ix2 p q) = G1 V c (((cfg1.win 3).blk t).view.emb (ix2 p q))
  rw [out1_at V c t h1 p q]
  refine congrArg _ ?_
  funext a; apply Fin.ext
  match a with
  | ⟨0, _⟩ => show t.val / 172 * 1024 + p.val = win1_3.index t (0 : Fin 2) * 1024 + 1 * p.val; omega
  | ⟨1, _⟩ => show t.val / 43 % 4 * 1024 + q.val = win1_3.index t (1 : Fin 2) * 1024 + 1 * q.val; omega

/-- An index of the array is in point `t`'s block iff each coordinate is in the block's range on its axis. -/
theorem mem_blk1 (t : Fin cfg1.N) (i : S2048x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v4).slice (win1_3.rect t)).set ↔ _
  rw [View.set_slice_whole, Rect.mem_set_unit]
  exact Iff.rfl

/-- Every index is in some flushing point's block: the last contraction block of its row block and column block. -/
theorem cover1 (i : S2048x4096.Idx) :
    ∃ t : Fin cfg1.N, (cfg1.win 3).flush t = true ∧ i ∈ ((cfg1.win 3).blk t).view.set := by
  have hi0 : (i 0).val < 2048 := idx2_lt0 i
  have hi1 : (i 1).val < 4096 := idx2_lt1 i
  let t : Fin cfg1.N := ⟨((i 0).val / 1024 * 4 + (i 1).val / 1024) * 43 + 42, by rw [show cfg1.N = 344 from N_1]; omega⟩
  have ht : t.val = ((i 0).val / 1024 * 4 + (i 1).val / 1024) * 43 + 42 := rfl
  obtain ⟨-, -, -, -, -, -, e6, e7⟩ := idx1 t
  refine ⟨t, (flush1_3 t).mpr (by omega), ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- THE ARRAY after the run: the specification's second stage of the arrays the region was entered with. -/
theorem arrAt1_eq (c : Dev nD) : (dat1 V c).arrAt 3 cfg1.N = G1 V c :=
  (dat1 V c).arrAt_eq_of_cover 3 (G1 V c) (fun t hf => flushed1_eq V c t hf) (cover1)

end Cert.KernelIdeal.FrV

end
-- ==== Proof.KI.Result.lean ====
/-
  The result of the kernel's program at the ideal instance: the array the second region's write-backs leave is the
  specification's result of the seven argument arrays. The second region leaves the second stage of the arrays it was
  entered with; of these the intermediate array is what the first region left — the first stage of the arrays IT was
  entered with —, the weights are the launch memory's, and the scale rows are the scale vectors reshaped; the two stages
  composed, the rows read back as vectors, are the specification.
-/
import proofs.«176034_j64441689309584_1_alg».proof.Proof.KI.Host
import proofs.«176034_j64441689309584_1_alg».proof.Proof.KI.R0Array
import proofs.«176034_j64441689309584_1_alg».proof.Proof.KI.R1Array

set_option maxRecDepth 16384

noncomputable section

namespace Cert.KernelIdeal.FrV

open Cert.KernelIdeal Cert.KernelIdeal.Gen Cert.KernelIdeal.Fr
open Idealize.ShloMosaic Idealize.ShloMosaic.TcCoe Idealize.ShloMosaic.ValueIdx
open Idealize.ShloMosaic.Pipeline (Dat)
open Cert.Mlp

variable (m : (ℓ : Loc nD τ sig) → Buf (Elt Ideal) ℓ)

theorem result_eq (c : Dev nD) :
    (dat1 (Vr3 m) c).arrAt 3 cfg1.N
      = Spec.Gout (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [arrAt1_eq (Vr3 m) c]
  have hH : Hin (Vr3 m) c = Spec.Hspec (m ((c : Thread nD τ).loc main_arg0)) (m ((c : Thread nD τ).loc main_arg1)) (m ((c : Thread nD τ).loc main_arg2))
      (shapeCast S1x11008 (m ((c : Thread nD τ).loc main_arg4)) shapeCasts_S11008_S1x11008)
      (shapeCast S1x11008 (m ((c : Thread nD τ).loc main_arg5)) shapeCasts_S11008_S1x11008) := by
    show W3 m c main_v2 = _
    rw [W3_v2 m c, arrAt0_eq (Vr1 m) c]
    show Spec.Hspec (V1 m c main_arg0) (V1 m c main_arg1) (V1 m c main_arg2) (V1 m c main_v0) (V1 m c main_v1) = _
    rw [V1_arg0, V1_arg1, V1_arg2, V1_v0, V1_v1]
  have hW : Wdn (Vr3 m) c = m ((c : Thread nD τ).loc main_arg3) := W3_arg3 m c
  have hS : Sdn (Vr3 m) c = shapeCast S1x4096 (m ((c : Thread nD τ).loc main_arg6)) shapeCasts_S4096_S1x4096 := by
    show W3 m c main_v3 = _
    rw [W3_v3 m c, W2_arg6 m c]
  show Spec.Ospec (Hin (Vr3 m) c) (Wdn (Vr3 m) c) (Sdn (Vr3 m) c) = _
  rw [hH, hW, hS, Spec.Ospec_Hspec, row_cast, row_cast, row_cast]

end Cert.KernelIdeal.FrV

end
-- ==== Proof.MlpRef.lean ====
import proofs.«176034_j64441689309584_1_alg».proof.Proof.Gen.ReferenceIdeal.Read
import proofs.«176034_j64441689309584_1_alg».proof.Proof.MlpSpec
import Idealize.ShloMosaic.Lib.IdealHost

/-!
# The reference computes the gated projection

The reference's last stage, read at an index `(t, j)`, is `Spec.Gout` of the seven argument arrays:
each whole-array contraction read at an index is the sum the specification writes, each scale
broadcast reads the scale of its column, and the spelt-out `x · (1 / (1 + exp (−x)))` is
`x · logistic x` by the definition of `logistic` on the extended reals.
-/

noncomputable section

namespace Cert.Mlp.Ref

open Cert.ReferenceIdeal Cert.ReferenceIdeal.Gen Cert.ReferenceIdeal.Read Idealize.ShloMosaic Idealize.ShloMosaic.ValueIdx
open scoped BigOperators

/-! ## Index equations -/

theorem lidx1 (t : Fin 2048) (o : Fin 11008) (k : Fin 4096) : lidx_main_v1 (ix2 t o) k = ix2 t k :=
  funext fun a => by match a with | ⟨0, _⟩ => rfl | ⟨1, _⟩ => rfl
theorem ridx1 (t : Fin 2048) (o : Fin 11008) (k : Fin 4096) : ridx_main_v1 (ix2 t o) k = ix2 o k :=
  funext fun a => by match a with | ⟨0, _⟩ => rfl | ⟨1, _⟩ => rfl
theorem lidx6 (t : Fin 2048) (o : Fin 11008) (k : Fin 4096) : lidx_main_v6 (ix2 t o) k = ix2 t k :=
  funext fun a => by match a with | ⟨0, _⟩ => rfl | ⟨1, _⟩ => rfl
theorem ridx6 (t : Fin 2048) (o : Fin 11008) (k : Fin 4096) : ridx_main_v6 (ix2 t o) k = ix2 o k :=
  funext fun a => by match a with | ⟨0, _⟩ => rfl | ⟨1, _⟩ => rfl
theorem lidx13 (t : Fin 2048) (j : Fin 4096) (o : Fin 11008) : lidx_main_v13 (ix2 t j) o = ix2 t o :=
  funext fun a => by match a with | ⟨0, _⟩ => rfl | ⟨1, _⟩ => rfl
theorem ridx13 (t : Fin 2048) (j : Fin 4096) (o : Fin 11008) : ridx_main_v13 (ix2 t j) o = ix2 j o :=
  funext fun a => by match a with | ⟨0, _⟩ => rfl | ⟨1, _⟩ => rfl
theorem idx23 (t : Fin 2048) (o : Fin 11008) : idx_main_v2 (idx_main_v3 (ix2 t o)) = ix1 o :=
  funext fun a => by match a with | ⟨0, _⟩ => rfl
theorem idx78 (t : Fin 2048) (o : Fin 11008) : idx_main_v7 (idx_main_v8 (ix2 t o)) = ix1 o :=
  funext fun a => by match a with | ⟨0, _⟩ => rfl
theorem idx1415 (t : Fin 2048) (j : Fin 4096) : idx_main_v14 (idx_main_v15 (ix2 t j)) = ix1 j :=
  funext fun a => by match a with | ⟨0, _⟩ => rfl

/-- A signed-integer conversion is the integer's real value. -/
theorem sitofp_at (b : BitVec 32) : FloatOps.sitofp (F := Ideal) .f32 b = (((b.toInt : ℤ) : ℝ) : EReal) := rfl

/-! ## The stages at an index -/

/-- The gate product at `(t, o)`. -/
theorem gate_apply (x0 : (⟨S2048x4096, .f32⟩ : BufTy).Contents (Elt Ideal)) (x1 : (⟨S11008x4096, .i32⟩ : BufTy).Contents (Elt Ideal))
    (x4 : (⟨S11008, .f32⟩ : BufTy).Contents (Elt Ideal)) (t : Fin 2048) (o : Fin 11008) :
    val_main_v4 (F := Ideal) x0 x1 x4 (ix2 t o) = Spec.gateAt x0 x1 x4 t o := by
  rw [val_main_v4_apply, val_main_v1_apply, val_main_v3_apply, val_main_v2_apply, idx23]
  unfold Spec.gateAt
  simp only [lidx1, ridx1, val_main_v0_apply, sitofp_at, Ideal.mulf_def]

/-- The up product at `(t, o)`. -/
theorem up_apply (x0 : (⟨S2048x4096, .f32⟩ : BufTy).Contents (Elt Ideal)) (x2 : (⟨S11008x4096, .i32⟩ : BufTy).Contents (Elt Ideal))
    (x5 : (⟨S11008, .f32⟩ : BufTy).Contents (Elt Ideal)) (t : Fin 2048) (o : Fin 11008) :
    val_main_v9 (F := Ideal) x0 x2 x5 (ix2 t o) = Spec.gateAt x0 x2 x5 t o := by
  rw [val_main_v9_apply, val_main_v6_apply, val_main_v8_apply, val_main_v7_apply, idx78]
  unfold Spec.gateAt
  simp only [lidx6, ridx6, val_main_v5_apply, sitofp_at, Ideal.mulf_def]

/-- The spelt-out `1 / (1 + exp (−g))` at `(t, o)` is `logistic g`. -/
theorem sigmoid_apply (x0 : (⟨S2048x4096, .f32⟩ : BufTy).Contents (Elt Ideal)) (x1 : (⟨S11008x4096, .i32⟩ : BufTy).Contents (Elt Ideal))
    (x4 : (⟨S11008, .f32⟩ : BufTy).Contents (Elt Ideal)) (t : Fin 2048) (o : Fin 11008) :
    val_main_call0_v5 (F := Ideal) x0 x1 x4 (ix2 t o) = Ideal.logistic (Spec.gateAt x0 x1 x4 t o) := by
  rw [val_main_call0_v5_apply, val_main_call0_v4_apply, val_main_call0_cst_0_apply, val_main_call0_v3_apply,
    val_main_call0_v2_apply, val_main_call0_cst_apply, val_main_call0_v1_apply, val_main_call0_v0_apply, gate_apply]
  simp only [Ideal.ofBits_def, Ideal.ofBits_one_f32, Ideal.hostDivf_def, Ideal.addf_def, Ideal.hostUnary_exp_def,
    Ideal.hostNegf_def, Ideal.negf_def]
  rfl

/-- The gated hidden value at `(t, o)`. -/
theorem h_apply (x0 : (⟨S2048x4096, .f32⟩ : BufTy).Contents (Elt Ideal)) (x1 x2 : (⟨S11008x4096, .i32⟩ : BufTy).Contents (Elt Ideal))
    (x4 x5 : (⟨S11008, .f32⟩ : BufTy).Contents (Elt Ideal)) (t : Fin 2048) (o : Fin 11008) :
    val_main_v11 (F := Ideal) x0 x1 x2 x4 x5 (ix2 t o) = Spec.hAt x0 x1 x2 x4 x5 t o := by
  rw [val_main_v11_apply, val_main_v10_apply, gate_apply, sigmoid_apply, up_apply]
  rfl

/-! ## The result -/

/-- The reference's last stage is the specification's function of the seven argument arrays. -/
theorem ref_eq (x0 : (⟨S2048x4096, .f32⟩ : BufTy).Contents (Elt Ideal)) (x1 x2 : (⟨S11008x4096, .i32⟩ : BufTy).Contents (Elt Ideal))
    (x3 : (⟨S4096x11008, .i32⟩ : BufTy).Contents (Elt Ideal)) (x4 x5 : (⟨S11008, .f32⟩ : BufTy).Contents (Elt Ideal))
    (x6 : (⟨S4096, .f32⟩ : BufTy).Contents (Elt Ideal)) :
    val_main_v16 (F := Ideal) x0 x1 x2 x3 x4 x5 x6 = Spec.Gout x0 x1 x2 x3 x4 x5 x6 := by
  funext i
  obtain ⟨t, j, rfl⟩ : ∃ (t : Fin 2048) (j : Fin 4096), i = ix2 t j := ⟨i 0, i 1, eq_ix2 i⟩
  rw [Spec.Gout_ix2, val_main_v16_apply, val_main_v13_apply, val_main_v15_apply, val_main_v14_apply, idx1415]
  unfold Spec.outAt
  simp only [lidx13, ridx13, h_apply, val_main_v12_apply, sitofp_at, Ideal.mulf_def]

end Cert.Mlp.Ref

end
-- ==== Proof.lean ====
/-
  A gated projection with integer weights, computed by two tiled kernels, against its plain reference.

  Both programs compute, over the extended reals,
      gate[t, o] = (Σ_k x[t, k] · w_gate[o, k]) · s_gate[o],      up[t, o] likewise with w_up, s_up,
      h[t, o]    = gate[t, o] · logistic(gate[t, o]) · up[t, o],
      out[t, j]  = (Σ_o h[t, o] · w_down[j, o]) · s_down[j].
  The reference does so with whole contractions. The kernels tile: the first walks a 4 × 43 × 2 grid, accumulating the
  two contractions over 2 blocks of 2048 in two buffers it zeroes at the first block and keeps from one grid point to
  the next, and stores the gated product at the last block; the second walks a 2 × 4 × 43 grid, accumulating its
  contraction over 43 blocks of 256 the same way, and stores the scaled sum at the last block. A sum split into
  consecutive blocks and added up block by block from zero is the whole sum (addition of extended reals is associative
  and commutative, zero its unit: no finiteness is needed), changes of float format are the identity at this instance,
  an integer converts to the same real whatever the float format named, and the logistic function is, by definition
  here, the quotient 1 / (1 + exp(−x)) the reference spells out.

  The frames — each program runs to the end, faults nowhere and leaves its arguments as launched — are proved for the
  two kernel programs over the pipeline library's several-regions launch, each region's body run once per case of its
  two conditionals and its accumulators carried in the region's invariant; the reference's is its run with the result
  dropped. The idealization rewrote nothing, so there is nothing for it to preserve.
-/
import proofs.«176034_j64441689309584_1_alg».proof.Defs
import proofs.«176034_j64441689309584_1_alg».proof.Proof.Gen.Kernel
import proofs.«176034_j64441689309584_1_alg».proof.Proof.Gen.KernelIdeal
import proofs.«176034_j64441689309584_1_alg».proof.Proof.Gen.ReferenceIdeal
import proofs.«176034_j64441689309584_1_alg».proof.Proof.Gen.ReferenceIdeal.Run
import proofs.«176034_j64441689309584_1_alg».proof.Proof.Gen.ReferenceIdeal.Read
import proofs.«176034_j64441689309584_1_alg».proof.Proof.Gen.Pre_finite_inputs
import proofs.«176034_j64441689309584_1_alg».proof.Proof.K.Main
import proofs.«176034_j64441689309584_1_alg».proof.Proof.KI.Main
import proofs.«176034_j64441689309584_1_alg».proof.Proof.KI.Result
import proofs.«176034_j64441689309584_1_alg».proof.Proof.MlpRef

noncomputable section

namespace Cert.Proof

open Idealize.ShloMosaic Idealize.SL.Sem

/-- The word-level program's frame. -/
theorem frame_k : Cert.frame_Kernel := fun m ρ _ => Cert.Kernel.Fr.frame m ρ
/-- The idealized program's frame. -/
theorem frame_ki : Cert.frame_KernelIdeal := fun m ρ _ => Cert.KernelIdeal.Fr.frame m ρ
/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification's result of those arguments. -/
theorem algebraic : Cert.algebraic_KernelIdeal_ReferenceIdeal := by
  intro m ρ m' ρ' _ hagree
  refine ⟨fun c => Cert.Mlp.Spec.Gout
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.FrV.result_eq m c), (h c).2⟩)
      (Cert.KernelIdeal.Fr.run_post (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v16_eq, Cert.Mlp.Ref.ref_eq,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
